-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S128x40 .f32) (main_arg9 : FVec F S40 .f32) (main_arg10 : FVec F S128x40 .f32) (main_v33 : IVec S_ 1) : IVec S_ 1 :=
  let main_v34 : FVec F S128x40 .f32 := Host.absf main_arg8
  let main_cst_12 : FVec F S_ .f32 := constant S_ .f32 0x7F800000#32
  let main_v35 : FVec F S128x40 .f32 := broadcastInDim S128x40 ![] bcast_S_S128x40 main_cst_12
  let main_v36 : IVec S128x40 1 := cmpf .olt main_v34 main_v35
  let main_c_13 : IVec S_ 1 := constantI S_ 1 1#1
  let main_v37 : IVec S_ 1 := (fun x v => Host.reduce IntOp.andi x v reducesTo_S128x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : FVec F S128x40 .f32 := Host.absf main_arg10
  let main_cst_16 : FVec F S_ .f32 := constant S_ .f32 0x7F800000#32
  let main_v45 : FVec F S128x40 .f32 := broadcastInDim S128x40 ![] bcast_S_S128x40 main_cst_16
  let main_v46 : IVec S128x40 1 := cmpf .olt main_v44 main_v45
  let main_c_17 : IVec S_ 1 := constantI S_ 1 1#1
  let main_v47 : IVec S_ 1 := (fun x v => Host.reduce IntOp.andi x v reducesTo_S128x40_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x40 .f32) (main_arg9 : FVec F S40 .f32) (main_arg10 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x40 .f32) (main_arg9 : FVec F S40 .f32) (main_arg10 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 78
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000x1, .f32⟩
  | .hbm, ⟨17, _⟩ => ⟨S_, .f32⟩
  | .hbm, ⟨18, _⟩ => ⟨S100000x1, .f32⟩
  | .hbm, ⟨19, _⟩ => ⟨S1600000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S_, .f32⟩
  | .hbm, ⟨25, _⟩ => ⟨S100000x1, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x40, .f32⟩
  | .hbm, ⟨77, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S1x40, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x40.size a ≤ S1x40.size a
  hwx2_3 : ∀ i : grid2.Coords, EltTy.bits .f32 = 32 ∨ (Rect.block (s := S1x40) S1x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S100000x40.size a
  hwx2_5 : ∀ i : grid2.Coords, EltTy.bits .f32 = 32 ∨ (Rect.block (s := S100000x40) S5000x40.size (cc2_transform_5 i) (hinb2_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩
abbrev S100000 : Shape := ⟨1, ![100000]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x40, .f32⟩
  | .hbm, ⟨9, _⟩ => ⟨S40, .f32⟩
  | .hbm, ⟨10, _⟩ => ⟨S128x40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000x1, .f32⟩
  | .hbm, ⟨30, _⟩ => ⟨S_, .f32⟩
  | .hbm, ⟨31, _⟩ => ⟨S100000x1, .f32⟩
  | .hbm, ⟨32, _⟩ => ⟨S1600000x1, .i32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000x1, .f32⟩
  | .hbm, ⟨63, _⟩ => ⟨S_, .f32⟩
  | .hbm, ⟨64, _⟩ => ⟨S100000x1, .f32⟩
  | .hbm, ⟨65, _⟩ => ⟨S1600000x1, .i32⟩
  | .hbm, ⟨66, _⟩ => ⟨S100000x1, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x128, .f32⟩
  | .hbm, ⟨90, _⟩ => ⟨S_, .f32⟩
  | .hbm, ⟨91, _⟩ => ⟨S100000x128, .f32⟩
  | .hbm, ⟨92, _⟩ => ⟨S1600000x1, .i32⟩
  | .hbm, ⟨93, _⟩ => ⟨S100000x128, .f32⟩
  | .hbm, ⟨94, _⟩ => ⟨S_, .f32⟩
  | .hbm, ⟨95, _⟩ => ⟨S1600000x1, .f32⟩
  | .hbm, ⟨96, _⟩ => ⟨S_, .f32⟩
  | .hbm, ⟨97, _⟩ => ⟨S100000x1, .f32⟩
  | .hbm, ⟨98, _⟩ => ⟨S1600000x1, .i32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x128, .f32⟩
  | .hbm, ⟨104, _⟩ => ⟨S100000x128, .f32⟩
  | .hbm, ⟨105, _⟩ => ⟨S100000x40, .f32⟩
  | .hbm, ⟨106, _⟩ => ⟨S1x40, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S100000x40, .f32⟩
  | .hbm, ⟨111, _⟩ => ⟨S_, .f32⟩
  | .hbm, ⟨112, _⟩ => ⟨S100000, .f32⟩
  | .hbm, ⟨113, _⟩ => ⟨S_, .f32⟩
  | .hbm, ⟨114, _⟩ => ⟨S100000, .f32⟩
  | .hbm, ⟨115, _⟩ => ⟨S100000, .f32⟩
  | .hbm, ⟨116, _⟩ => ⟨S100000x1, .f32⟩
  | .hbm, ⟨117, _⟩ => ⟨S100000x40, .f32⟩
  | .hbm, ⟨118, _⟩ => ⟨S100000x40, .f32⟩
  | .hbm, ⟨119, _⟩ => ⟨S100000x40, .f32⟩
  | .hbm, ⟨120, _⟩ => ⟨S_, .f32⟩
  | .hbm, ⟨121, _⟩ => ⟨S100000, .f32⟩
  | .hbm, ⟨122, _⟩ => ⟨S100000x1, .f32⟩
  | .hbm, ⟨123, _⟩ => ⟨S100000x1, .f32⟩
  | .hbm, ⟨124, _⟩ => ⟨S100000x40, .f32⟩
  | .hbm, ⟨125, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_cst : Ref sig .tc := ⟨.hbm, 78, rfl⟩
abbrev main_call1_v0 : Ref sig .tc := ⟨.hbm, 79, rfl⟩
abbrev main_v53 : Ref sig .tc := ⟨.hbm, 80, rfl⟩
abbrev main_c_10 : Ref sig .tc := ⟨.hbm, 81, rfl⟩
abbrev main_v54 : Ref sig .tc := ⟨.hbm, 82, rfl⟩
abbrev main_v55 : Ref sig .tc := ⟨.hbm, 83, rfl⟩
abbrev main_c_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call2_cst : Ref sig .tc := ⟨.hbm, 111, rfl⟩
abbrev main_call2_v0 : Ref sig .tc := ⟨.hbm, 112, rfl⟩
abbrev main_call2_cst_0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_call2_v5 : Ref sig .tc := ⟨.hbm, 118, rfl⟩
abbrev main_call2_v6 : Ref sig .tc := ⟨.hbm, 119, rfl⟩
abbrev main_call2_cst_1 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_v78 : Ref sig .tc := ⟨.hbm, 125, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run with its two result arrays named. The program is three pipelined regions among
  stretches of host operations; its buffers' contents at the six boundaries are a fold from the launch memory, and
  the last of them (the contents when the third region has flushed its last block) is what every final state holds.
  The frame reads the eleven argument arrays off that last boundary; here the two result arrays are read off it as
  well: the logits' log-softmax (the third region's output array) and the embeddings (the second region's).
-/
import proofs.«102452_j14980845929105_1_alg».proof.Proof.KernelIdealFrameP

set_option maxRecDepth 16384

noncomputable section

namespace Cert.KernelIdeal.RunNamed

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state the two result
    arrays hold the last boundary's contents and the arguments are as launched. -/
theorem run : θ_run defs (onTc (τ := τ) (main (F := F))) ⟨m, fun _ => 0, ρ⟩ (fun r => ∀ c : Dev nD,
      r.2.mem ((c.tc : Thread nD τ).loc main_v53) = W6 m ρ c (Proc.devRef .tc main_v53)
      ∧ r.2.mem ((c.tc : Thread nD τ).loc main_v39) = W6 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53 (by decide)),
       h c _ (mem_uc main_v39 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunNamed

end
-- ==== Proof.RefStages.lean ====
/-
  The reference program read one operation at a time: the stages' names are used by the modules that identify each
  layer of the reference with the layer function of the specification.
-/
import proofs.«102452_j14980845929105_1_alg».proof.Proof.RefReadP
-- ==== Proof.Spec.lean ====
/-
  The mathematics of the certificate, with no program in sight.

  One mean-aggregation layer of the network takes the matrix `mean` of neighbour means and the matrix `h` of node
  features (one row per node) and returns, row by row, `mean · Wl + b + h · Wr`: entry `(r, c)` is
  `(∑ₖ mean r k · Wl k c + b c) + ∑ₖ h r k · Wr k c`. The first two layers clamp that at zero from below; the last
  one takes the logarithm of the softmax of each row: `z r c − M r − log ∑ⱼ exp (z r j − M r)` with `M r` the row's
  maximum. Every entry of the result depends on ONE row of `mean` and of `h`, which is why computing the layer on
  blocks of rows and on the whole matrices is the same thing.

  Three laws join the two programs, all valid on the extended reals with no finiteness assumption: the three summands
  may be added in either order; a quotient by a nonzero divisor is the product with the divisor's reciprocal,
  `a · (1 / d) = a / d`; and the maximum of a family, taken from a starting value, is at least that starting value.
-/
import Idealize.ShloMosaic.PureOps.Ideal
import Idealize.ShloMosaic.PureOps.Ideal.Laws
import Idealize.ShloMosaic.Lib.ValueIdx
import Mathlib.Data.Finset.Fold

noncomputable section

open scoped BigOperators

namespace Cert.Sage

open Idealize.ShloMosaic Idealize.ShloMosaic.ValueIdx

/-- A matrix of extended reals with `n` rows and `m` columns. -/
abbrev Mat (n m : Nat) : Type := FVec Ideal (⟨2, ![n, m]⟩ : Shape) .f32
/-- A vector of extended reals of length `c`. -/
abbrev Row (c : Nat) : Type := FVec Ideal (⟨1, ![c]⟩ : Shape) .f32

/-- The float word of zero, as both programs write it. Never evaluated: it is the same word on both sides. -/
abbrev zeroWord : EReal := Ideal.ofBits .f32 0x00000000#32
/-- The float word of minus infinity, the value both programs start a row's maximum from. Never evaluated. -/
abbrev negInfWord : EReal := Ideal.ofBits .f32 0xFF800000#32

/-- The matrix product, entry by entry: row `i 0` of `a` against column `i 1` of `w`. -/
def rowDot {n m c : Nat} (a : Mat n m) (w : Mat m c) : Mat n c :=
  fun i => ∑ k : Fin m, a (ix2 (i 0) k) * w (ix2 k (i 1))

/-- The layer before its activation: `(mean · Wl + b) + h · Wr`. -/
def affine {n m c : Nat} (mean h : Mat n m) (Wl Wr : Mat m c) (b : Row c) : Mat n c :=
  fun i => (rowDot mean Wl i + b (ix1 (i 1))) + rowDot h Wr i

/-- The same three summands in the order `(mean · Wl + h · Wr) + b`. -/
def affineK {n m c : Nat} (mean h : Mat n m) (Wl Wr : Mat m c) (b : Row c) : Mat n c :=
  fun i => (rowDot mean Wl i + rowDot h Wr i) + b (ix1 (i 1))

/-- Addition of extended reals is commutative and associative, so the two orders agree. -/
theorem affineK_eq {n m c : Nat} (mean h : Mat n m) (Wl Wr : Mat m c) (b : Row c) :
    affineK mean h Wl Wr b = affine mean h Wl Wr b := by
  funext i
  unfold affineK affine
  exact add_right_comm _ _ _

/-- A hidden layer: the affine part clamped at zero from below. -/
def sageRelu {n m c : Nat} (mean h : Mat n m) (Wl Wr : Mat m c) (b : Row c) : Mat n c :=
  fun i => max (affine mean h Wl Wr b i) zeroWord

/-- The maximum of row `r`, taken from minus infinity. -/
def rowMax {n c : Nat} (z : Mat n c) (r : Fin n) : EReal :=
  (Finset.univ : Finset (Fin c)).fold max negInfWord (fun j => z (ix2 r j))

/-- The logarithm of the softmax of each row, shifted by the row's maximum. -/
def logSoftmax {n c : Nat} (z : Mat n c) : Mat n c :=
  fun i => (z i - rowMax z (i 0)) - Ideal.log (∑ j : Fin c, Ideal.exp (z (ix2 (i 0) j) - rowMax z (i 0)))

/-- The output layer: the log-softmax of the affine part. -/
def sageOut {n m c : Nat} (mean h : Mat n m) (Wl Wr : Mat m c) (b : Row c) : Mat n c :=
  logSoftmax (affine mean h Wl Wr b)

/-- The single row of a one-row matrix, as a vector. -/
def rowVec {c : Nat} (b : Mat 1 c) : Row c := fun q => b (ix2 0 (q 0))

/-- The maximum taken from a starting value is at least that value, so taking the maximum with it again changes nothing. -/
theorem max_start_fold {ι : Type*} (s : Finset ι) (f : ι → EReal) (a : EReal) :
    max a (s.fold max a f) = s.fold max a f :=
  max_eq_right ((Finset.le_fold_max a).mpr (Or.inl le_rfl))

/-- A quotient by a nonzero divisor is the product with the reciprocal: `a · (1 / d) = a / d`, infinities included. -/
theorem mul_one_div (a d : EReal) (hd : d ≠ 0) : a * Ideal.div 1 d = Ideal.div a d := by
  unfold Ideal.div
  rw [if_neg hd, if_neg hd, one_mul]

/-- A maximum with a positive number is not zero. -/
theorem max_ne_zero_of_pos (x p : EReal) (hp : 0 < p) : max x p ≠ 0 :=
  (lt_of_lt_of_le hp (le_max_right x p)).ne'

end Cert.Sage

end
-- ==== Proof.MeanLaw.lean ====
/-
  The neighbour mean, two ways. The reference divides the neighbour sum of a node by the node's clamped in-degree
  `d = max(deg, 1)`; the kernel's program first forms the reciprocal `1 / d` and multiplies the neighbour sum by it.
  Since `d ≥ 1` is not zero, `a · (1 / d) = a / d` on the extended reals, whatever `a` is. The neighbour sum and the
  degree are the reference's own stages (a gather along the edges' sources, a scatter-add onto their destinations),
  taken here as functions of the node features `h` and the edge list `e` and never opened.
-/
import proofs.«102452_j14980845929105_1_alg».proof.Proof.RefStages
import proofs.«102452_j14980845929105_1_alg».proof.Proof.Spec

noncomputable section

namespace Cert.Sage.Mean

open Cert.ReferenceIdeal Cert.ReferenceIdeal.Gen Cert.ReferenceIdeal.ReadP Idealize.ShloMosaic Idealize.ShloMosaic.ValueIdx

/-- Node features: one row of 128 numbers per node. -/
abbrev Feat : Type := FVec Ideal S100000x128 .f32
/-- The edge list: a row of sources and a row of destinations. -/
abbrev Edges : Type := IVec S2x1600000 32

/-- The float word of one denotes the number one. -/
theorem one_word : Ideal.ofBits .f32 0x3F800000#32 = 1 := by
  simp [Ideal.ofBits, Ideal.ieee, -EReal.coe_mul]; norm_num

/-- One over the clamped in-degree of every node. -/
def recip (e : Edges) : FVec Ideal S100000x1 .f32 :=
  Host.divf (F := Ideal) (val_main_v18 (F := Ideal)) (val_main_v19 (F := Ideal) e)

/-- The neighbour mean as the kernel's program forms it: the neighbour sum times the reciprocal of the clamped degree,
    the reciprocal column repeated along each row. -/
def meanK (h : Feat) (e : Edges) : Feat :=
  mulf (F := Ideal) (val_main_v13 (F := Ideal) h e) (broadcastInDim S100000x128 ![0, 1] bcast_S100000x1_S100000x128_0_1 (recip e))

/-- The clamped degree is the maximum of the degree with one, so it is not zero. -/
theorem clamped_ne_zero (e : Edges) (j : S100000x1.Idx) : val_main_v19 (F := Ideal) e j ≠ 0 := by
  rw [val_main_v19_apply, val_main_v18_apply]
  show max (val_main_v17 (F := Ideal) e j) (Ideal.ofBits .f32 0x3F800000#32) ≠ 0
  rw [one_word]
  exact Cert.Sage.max_ne_zero_of_pos _ _ one_pos

/-- The float word of one, repeated over the nodes, is one at every node. -/
theorem ones_apply (j : S100000x1.Idx) : val_main_v18 (F := Ideal) j = 1 := by
  rw [val_main_v18_apply]
  show Ideal.ofBits .f32 0x3F800000#32 = 1
  exact one_word

/-- The law on arbitrary columns: a sum `a` times the repeated column `1 / d` is `a / d` entry by entry, when `d` is
    nowhere zero. -/
theorem mul_recip_row (a : FVec Ideal S100000x128 .f32) (one d : FVec Ideal S100000x1 .f32) (i : S100000x128.Idx)
    (hone : ∀ j, one j = 1) (hd : ∀ j, d j ≠ 0) :
    mulf (F := Ideal) a (broadcastInDim S100000x128 ![0, 1] bcast_S100000x1_S100000x128_0_1 (Host.divf (F := Ideal) one d)) i
      = Ideal.div (a i) (d (idx_main_v20 i)) := by
  rw [mulf_apply]
  have hb : broadcastInDim S100000x128 ![0, 1] bcast_S100000x1_S100000x128_0_1 (Host.divf (F := Ideal) one d) i
      = Host.divf (F := Ideal) one d (idx_main_v20 i) := by
    generalize Host.divf (F := Ideal) one d = y
    exact broadcastInDim_apply _ bcast_S100000x1_S100000x128_0_1 y i (idx_main_v20 i) (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])
  rw [hb]
  show a i * Ideal.div (one (idx_main_v20 i)) (d (idx_main_v20 i)) = _
  rw [hone]
  exact Cert.Sage.mul_one_div _ _ (hd _)

/-- The kernel's neighbour mean is the reference's: `a · (1 / d) = a / d` for the nonzero clamped degree `d`. -/
theorem meanK_eq (h : Feat) (e : Edges) : meanK h e = val_main_v21 (F := Ideal) h e := by
  funext i
  rw [val_main_v21_apply, val_main_v20_apply, Ideal.hostDivf_def]
  unfold meanK recip
  exact mul_recip_row (val_main_v13 (F := Ideal) h e) (val_main_v18 (F := Ideal)) (val_main_v19 (F := Ideal) e) i ones_apply (clamped_ne_zero e)

end Cert.Sage.Mean

end
-- ==== Proof.HostGlue.lean ====
/-
  What the host operations between the regions leave in the buffers the regions read. The program's buffers at the
  six boundaries are a fold from the launch memory: a stretch of host operations, then a region, three times. Each
  stretch gathers the current node features along the edges' sources, scatter-adds them onto the edges' destinations
  and multiplies by the reciprocal of the clamped in-degree (computed once, in the first stretch): these are the
  reference's own operations on the same inputs, so each stretch's result is named here by the reference's stages
  applied to the features the stretch found. A buffer that a stretch does not write, and that the region before it
  does not own, keeps its contents; the arguments are never written.
-/
import proofs.«102452_j14980845929105_1_alg».proof.Proof.KernelIdealFrameP
import proofs.«102452_j14980845929105_1_alg».proof.Proof.MeanLaw
import Idealize.ShloMosaic.Lib.StableHlo.Run

set_option maxRecDepth 16384

noncomputable section

namespace Cert.KernelIdeal.Glue

open Cert.KernelIdeal Cert.KernelIdeal.Gen Cert.KernelIdeal.GenP
open Idealize.ShloMosaic Idealize.ShloMosaic.TcCoe Idealize.ShloMosaic.StableHlo Idealize.SL.Sem
open Cert.Sage.Mean (meanK recip Feat Edges)

variable (m : (ℓ : Loc nD τ sig) → Buf (Elt Ideal) ℓ) (ρ : Dev nD → PrngReg)

/-- A stretch of host operations does not write the buffer: none of its operations has it as its result. -/
macro "host_keeps" ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The edge list as launched, on core `c`. -/
abbrev edges (c : Dev nD) : Edges := m ((c : Thread nD τ).loc main_arg1)
/-- The node features as launched. -/
abbrev feats (c : Dev nD) : Feat := m ((c : Thread nD τ).loc main_arg0)

/-! ## The first stretch, from the launch memory -/

theorem W1_v1 (c : Dev nD) : W1 m ρ c (Proc.devRef .tc main_v1) = Cert.ReferenceIdeal.ReadP.val_main_v1 (F := Ideal) (edges m c) := by
  show StableHlo.after hostOps0 (W0 m ρ c) (Proc.devRef .tc main_v1) = _
  after_results_simp
  rfl
theorem W1_v3 (c : Dev nD) : W1 m ρ c (Proc.devRef .tc main_v3) = Cert.ReferenceIdeal.ReadP.val_main_v3 (F := Ideal) (edges m c) := by
  show StableHlo.after hostOps0 (W0 m ρ c) (Proc.devRef .tc main_v3) = _
  after_results_simp
  rfl
theorem W1_v11 (c : Dev nD) : W1 m ρ c (Proc.devRef .tc main_v11) = recip (edges m c) := by
  show StableHlo.after hostOps0 (W0 m ρ c) (Proc.devRef .tc main_v11) = _
  after_results_simp
  rfl
theorem W1_v23 (c : Dev nD) : W1 m ρ c (Proc.devRef .tc main_v23) = meanK (feats m c) (edges m c) := by
  show StableHlo.after hostOps0 (W0 m ρ c) (Proc.devRef .tc main_v23) = _
  after_results_simp
  rfl
theorem W1_v24 (c : Dev nD) : W1 m ρ c (Proc.devRef .tc main_v24) = shapeCast S1x128 (m ((c : Thread nD τ).loc main_arg3)) shapeCasts_S128_S1x128 := by
  show StableHlo.after hostOps0 (W0 m ρ c) (Proc.devRef .tc main_v24) = _
  after_results_simp
  rfl
theorem W1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  host_keeps hostOps0
theorem W1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  host_keeps hostOps0
theorem W1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  host_keeps hostOps0
theorem W1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  host_keeps hostOps0
theorem W1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  host_keeps hostOps0
theorem W1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  host_keeps hostOps0
theorem W1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  host_keeps hostOps0
theorem W1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  host_keeps hostOps0
theorem W1_arg10 (c : Dev nD) : W1 m ρ c (Proc.devRef .tc main_arg10) = m ((c : Thread nD τ).loc main_arg10) := by
  show StableHlo.after hostOps0 (W0 m ρ c) (Proc.devRef .tc main_arg10) = W0 m ρ c (Proc.devRef .tc main_arg10)
  host_keeps hostOps0

/-! ## The first region's exit: what it does not own is as it was -/

theorem W2_v1 (c : Dev nD) : W2 m ρ c (Proc.devRef .tc main_v1) = Cert.ReferenceIdeal.ReadP.val_main_v1 (F := Ideal) (edges m c) :=
  (W2_of_ne m ρ c main_v1 (by decide)).trans (W1_v1 m ρ c)
theorem W2_v3 (c : Dev nD) : W2 m ρ c (Proc.devRef .tc main_v3) = Cert.ReferenceIdeal.ReadP.val_main_v3 (F := Ideal) (edges m c) :=
  (W2_of_ne m ρ c main_v3 (by decide)).trans (W1_v3 m ρ c)
theorem W2_v11 (c : Dev nD) : W2 m ρ c (Proc.devRef .tc main_v11) = recip (edges m c) :=
  (W2_of_ne m ρ c main_v11 (by decide)).trans (W1_v11 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## The second stretch, from the first region's exit -/

theorem W3_v37 (c : Dev nD) : W3 m ρ c (Proc.devRef .tc main_v37) = meanK (W2 m ρ c (Proc.devRef .tc main_v25)) (edges m c) := by
  show StableHlo.after hostOps1 (W2 m ρ c) (Proc.devRef .tc main_v37) = _
  after_results_simp
  rw [W2_v1, W2_v3, W2_v11]
  rfl
theorem W3_v38 (c : Dev nD) : W3 m ρ c (Proc.devRef .tc main_v38) = shapeCast S1x128 (m ((c : Thread nD τ).loc main_arg6)) shapeCasts_S128_S1x128 := by
  show StableHlo.after hostOps1 (W2 m ρ c) (Proc.devRef .tc main_v38) = _
  after_results_simp
  rw [W2_arg6]
  rfl
theorem W3_v25 (c : Dev nD) : W3 m ρ c (Proc.devRef .tc main_v25) = W2 m ρ c (Proc.devRef .tc main_v25) := by
  show StableHlo.after hostOps1 (W2 m ρ c) (Proc.devRef .tc main_v25) = W2 m ρ c (Proc.devRef .tc main_v25)
  host_keeps hostOps1
theorem W3_v1 (c : Dev nD) : W3 m ρ c (Proc.devRef .tc main_v1) = Cert.ReferenceIdeal.ReadP.val_main_v1 (F := Ideal) (edges m c) :=
  (show StableHlo.after hostOps1 (W2 m ρ c) (Proc.devRef .tc main_v1) = W2 m ρ c (Proc.devRef .tc main_v1) by host_keeps hostOps1).trans (W2_v1 m ρ c)
theorem W3_v3 (c : Dev nD) : W3 m ρ c (Proc.devRef .tc main_v3) = Cert.ReferenceIdeal.ReadP.val_main_v3 (F := Ideal) (edges m c) :=
  (show StableHlo.after hostOps1 (W2 m ρ c) (Proc.devRef .tc main_v3) = W2 m ρ c (Proc.devRef .tc main_v3) by host_keeps hostOps1).trans (W2_v3 m ρ c)
theorem W3_v11 (c : Dev nD) : W3 m ρ c (Proc.devRef .tc main_v11) = recip (edges m c) :=
  (show StableHlo.after hostOps1 (W2 m ρ c) (Proc.devRef .tc main_v11) = W2 m ρ c (Proc.devRef .tc main_v11) by host_keeps hostOps1).trans (W2_v11 m ρ c)
theorem W3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by host_keeps hostOps1).trans (W2_arg5 m ρ c)
theorem W3_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by host_keeps hostOps1).trans (W2_arg7 m ρ c)
theorem W3_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) by host_keeps hostOps1).trans (W2_arg8 m ρ c)
theorem W3_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) by host_keeps hostOps1).trans (W2_arg9 m ρ c)
theorem W3_arg10 (c : Dev nD) : W3 m ρ c (Proc.devRef .tc main_arg10) = m ((c : Thread nD τ).loc main_arg10) :=
  (show StableHlo.after hostOps1 (W2 m ρ c) (Proc.devRef .tc main_arg10) = W2 m ρ c (Proc.devRef .tc main_arg10) by host_keeps hostOps1).trans (W2_arg10 m ρ c)

/-! ## The second region's exit -/

theorem W4_v1 (c : Dev nD) : W4 m ρ c (Proc.devRef .tc main_v1) = Cert.ReferenceIdeal.ReadP.val_main_v1 (F := Ideal) (edges m c) :=
  (W4_of_ne m ρ c main_v1 (by decide)).trans (W3_v1 m ρ c)
theorem W4_v3 (c : Dev nD) : W4 m ρ c (Proc.devRef .tc main_v3) = Cert.ReferenceIdeal.ReadP.val_main_v3 (F := Ideal) (edges m c) :=
  (W4_of_ne m ρ c main_v3 (by decide)).trans (W3_v3 m ρ c)
theorem W4_v11 (c : Dev nD) : W4 m ρ c (Proc.devRef .tc main_v11) = recip (edges m c) :=
  (W4_of_ne m ρ c main_v11 (by decide)).trans (W3_v11 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)

/-! ## The third stretch, from the second region's exit -/

theorem W5_v51 (c : Dev nD) : W5 m ρ c (Proc.devRef .tc main_v51) = meanK (W4 m ρ c (Proc.devRef .tc main_v39)) (edges m c) := by
  show StableHlo.after hostOps2 (W4 m ρ c) (Proc.devRef .tc main_v51) = _
  after_results_simp
  rw [W4_v1, W4_v3, W4_v11]
  rfl
theorem W5_v52 (c : Dev nD) : W5 m ρ c (Proc.devRef .tc main_v52) = shapeCast S1x40 (m ((c : Thread nD τ).loc main_arg9)) shapeCasts_S40_S1x40 := by
  show StableHlo.after hostOps2 (W4 m ρ c) (Proc.devRef .tc main_v52) = _
  after_results_simp
  rw [W4_arg9]
  rfl
theorem W5_v39 (c : Dev nD) : W5 m ρ c (Proc.devRef .tc main_v39) = W4 m ρ c (Proc.devRef .tc main_v39) := by
  show StableHlo.after hostOps2 (W4 m ρ c) (Proc.devRef .tc main_v39) = W4 m ρ c (Proc.devRef .tc main_v39)
  host_keeps hostOps2
theorem W5_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) by host_keeps hostOps2).trans (W4_arg8 m ρ c)
theorem W5_arg10 (c : Dev nD) : W5 m ρ c (Proc.devRef .tc main_arg10) = m ((c : Thread nD τ).loc main_arg10) :=
  (show StableHlo.after hostOps2 (W4 m ρ c) (Proc.devRef .tc main_arg10) = W4 m ρ c (Proc.devRef .tc main_arg10) by host_keeps hostOps2).trans (W4_arg10 m ρ c)

/-! ## The third region's exit: the embeddings' array is one of its inputs, left as found -/

theorem W6_v39 (c : Dev nD) : W6 m ρ c (Proc.devRef .tc main_v39) = W4 m ρ c (Proc.devRef .tc main_v39) :=
  ((W6_arr m ρ c 1).trans (((dat2 (V5 m ρ) c).arrAt_in 1 rfl _).trans (A_eq2 (V5 m ρ) c 1))).trans (W5_v39 m ρ c)

end Cert.KernelIdeal.Glue

end
-- ==== Proof.Payload.lean ====
/-
  The three kernel bodies, read entry by entry.

  Each body computes, on a block of rows, the layer function of the specification. The narrowing of the operands
  before the matrix unit and a shape cast to the same shape are the identity on the extended reals; a matrix product
  into the zero splat is, at entry `(p, q)`, the sum over `k` of row `p` of the left operand against column `q` of
  the right one; the broadcast of the one-row bias reads its row at the column. The bodies add the two products first
  and the bias last, where the specification adds the bias between them: addition of extended reals is commutative
  and associative. The first two bodies then clamp at the zero word. The last body takes each row's maximum from
  minus infinity, subtracts it, and subtracts the logarithm of the row's sum of exponentials: a reduction along the
  columns read at row `r` is the fold, or the sum, over the columns `k` of the entries `(r, k)`, and the column
  `[n] → [n, 1] → [n, c]` it is spread through reads the row's entry.
-/
import proofs.«102452_j14980845929105_1_alg».proof.Proof.Gen.KernelIdeal.Skeleton
import proofs.«102452_j14980845929105_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Sage.Payload

open Cert.KernelIdeal Cert.KernelIdeal.Gen Idealize.ShloMosaic Idealize.ShloMosaic.ValueIdx

/-! ## The matrix product `[5000, 128] · [128, 128]` read at an entry -/

/-- The left operand's index keeps the output's row. -/
theorem lhs128_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem lhs128_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the contraction index. -/
theorem rhs128_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's index keeps the output's column. -/
theorem rhs128_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero splat at `(p, q)`: `∑ₖ a (p, k) · w (k, q)`. -/
theorem matmul128_apply (a : FVec Ideal S5000x128 .bf16) (w : FVec Ideal S128x128 .bf16) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhs128_0 _ _).trans hk
    | ⟨1, _⟩ => exact rhs128_1 _ _)
  rw [el, er]

/-- The body's three summands `(mean · Wl + h · Wr) + b` at `(p, q)` are the specification's affine part there. -/
theorem affine128_apply (a h : FVec Ideal S5000x128 .f32) (wl wr : FVec Ideal S128x128 .f32) (b : FVec Ideal S1x128 .f32)
    (p : Fin 5000) (q : Fin 128) :
    (matmul (F := Ideal) dot_S5000x128_S128x128_S5000x128_1_0_0_1_n_n none (truncf .bf16 a bitsLt_bf16_f32) (truncf .bf16 wl bitsLt_bf16_f32)
          (constant (F := Ideal) S5000x128 .f32 0x00000000#32) (ix2 p q)
        + matmul (F := Ideal) dot_S5000x128_S128x128_S5000x128_1_0_0_1_n_n none (truncf .bf16 h bitsLt_bf16_f32) (truncf .bf16 wr bitsLt_bf16_f32)
          (constant (F := Ideal) S5000x128 .f32 0x00000000#32) (ix2 p q))
      + broadcastTo S5000x128 b broadcasts_S1x128_S5000x128 (ix2 p q)
      = Cert.Sage.affine a h wl wr (Cert.Sage.rowVec b) (ix2 p q) := by
  rw [← Cert.Sage.affineK_eq]
  show _ = ((∑ k : Fin 128, a (ix2 p k) * wl (ix2 k q)) + ∑ k : Fin 128, h (ix2 p k) * wr (ix2 k q)) + b (ix2 (0 : Fin 1) q)
  rw [matmul128_apply, matmul128_apply, broadcastTo_1b_ab_apply]
  rfl

/-! ## The two hidden layers -/

/-- The first body is the hidden layer on its block. -/
theorem pay0_eq (v0 v3 : Vec Ideal S5000x128 .f32) (v5 v7 : Vec Ideal S128x128 .f32) (v12 : Vec Ideal S1x128 .f32) :
    k0_pay1 (F := Ideal) v0 v3 v5 v7 v12 = Cert.Sage.sageRelu v0 v3 v5 v7 (Cert.Sage.rowVec v12) := by
  funext j
  obtain ⟨p, q, rfl⟩ : ∃ (p : Fin 5000) (q : Fin 128), j = ix2 p q := ⟨j 0, j 1, eq_ix2 j⟩
  unfold k0_pay1
  simp only [shapeCast_self]
  exact congrArg (fun x => max x Cert.Sage.zeroWord) (affine128_apply v0 v3 v5 v7 v12 p q)

/-- The second body is the hidden layer on its block. -/
theorem pay1_eq (v0 v3 : Vec Ideal S5000x128 .f32) (v6 v8 : Vec Ideal S128x128 .f32) (v13 : Vec Ideal S1x128 .f32) :
    k1_pay1 (F := Ideal) v0 v3 v6 v8 v13 = Cert.Sage.sageRelu v0 v3 v6 v8 (Cert.Sage.rowVec v13) := by
  funext j
  obtain ⟨p, q, rfl⟩ : ∃ (p : Fin 5000) (q : Fin 128), j = ix2 p q := ⟨j 0, j 1, eq_ix2 j⟩
  unfold k1_pay1
  simp only [shapeCast_self]
  exact congrArg (fun x => max x Cert.Sage.zeroWord) (affine128_apply v0 v3 v6 v8 v13 p q)

/-! ## The matrix product `[5000, 128] · [128, 40]` read at an entry -/

/-- The left operand's index keeps the output's row. -/
theorem lhs40_0 (i : S5000x40.Idx) (c : dot_S5000x128_S128x40_S5000x40_1_0_0_1_n_n.contr.Idx) :
    (dot_S5000x128_S128x40_S5000x40_1_0_0_1_n_n.lhsIdx i c 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- The left operand's column is the contraction index. -/
theorem lhs40_1 (i : S5000x40.Idx) (c : dot_S5000x128_S128x40_S5000x40_1_0_0_1_n_n.contr.Idx) :
    (dot_S5000x128_S128x40_S5000x40_1_0_0_1_n_n.lhsIdx i c 1).val = (c ⟨0, by decide⟩).val :=
  dot_S5000x128_S128x40_S5000x40_1_0_0_1_n_n.lhsIdx_val_of_single rfl i c
/-- The right operand's row is the contraction index. -/
theorem rhs40_0 (i : S5000x40.Idx) (c : dot_S5000x128_S128x40_S5000x40_1_0_0_1_n_n.contr.Idx) :
    (dot_S5000x128_S128x40_S5000x40_1_0_0_1_n_n.rhsIdx i c 0).val = (c ⟨0, by decide⟩).val :=
  dot_S5000x128_S128x40_S5000x40_1_0_0_1_n_n.rhsIdx_val_of_single rfl i c
/-- The right operand's index keeps the output's column. -/
theorem rhs40_1 (i : S5000x40.Idx) (c : dot_S5000x128_S128x40_S5000x40_1_0_0_1_n_n.contr.Idx) :
    (dot_S5000x128_S128x40_S5000x40_1_0_0_1_n_n.rhsIdx i c 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into the zero splat at `(p, q)`: `∑ₖ a (p, k) · w (k, q)`. -/
theorem matmul40_apply (a : FVec Ideal S5000x128 .bf16) (w : FVec Ideal S128x40 .bf16) (p : Fin 5000) (q : Fin 40) :
    matmul (F := Ideal) dot_S5000x128_S128x40_S5000x40_1_0_0_1_n_n none a w (constant (F := Ideal) S5000x40 .f32 0x00000000#32) (ix2 p q)
      = ∑ k : Fin 128, a (ix2 p k) * w (ix2 k q) := by
  refine (Ideal.matmul_constant_zero_apply dot_S5000x128_S128x40_S5000x40_1_0_0_1_n_n none a w (ix2 p q)).trans ?_
  rw [← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun ax => Fin.ext (by
    match ax with
    | ⟨0, _⟩ => exact lhs40_0 _ _
    | ⟨1, _⟩ => exact (lhs40_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun ax => Fin.ext (by
    match ax with
    | ⟨0, _⟩ => exact (rhs40_0 _ _).trans hk
    | ⟨1, _⟩ => exact rhs40_1 _ _)
  rw [el, er]

/-- The body's three summands `(mean · Wl + h · Wr) + b` at `(p, q)` are the specification's affine part there. -/
theorem affine40_apply (a h : FVec Ideal S5000x128 .f32) (wl wr : FVec Ideal S128x40 .f32) (b : FVec Ideal S1x40 .f32)
    (p : Fin 5000) (q : Fin 40) :
    (matmul (F := Ideal) dot_S5000x128_S128x40_S5000x40_1_0_0_1_n_n none (truncf .bf16 a bitsLt_bf16_f32) (truncf .bf16 wl bitsLt_bf16_f32)
          (constant (F := Ideal) S5000x40 .f32 0x00000000#32) (ix2 p q)
        + matmul (F := Ideal) dot_S5000x128_S128x40_S5000x40_1_0_0_1_n_n none (truncf .bf16 h bitsLt_bf16_f32) (truncf .bf16 wr bitsLt_bf16_f32)
          (constant (F := Ideal) S5000x40 .f32 0x00000000#32) (ix2 p q))
      + broadcastTo S5000x40 b broadcasts_S1x40_S5000x40 (ix2 p q)
      = Cert.Sage.affine a h wl wr (Cert.Sage.rowVec b) (ix2 p q) := by
  rw [← Cert.Sage.affineK_eq]
  show _ = ((∑ k : Fin 128, a (ix2 p k) * wl (ix2 k q)) + ∑ k : Fin 128, h (ix2 p k) * wr (ix2 k q)) + b (ix2 (0 : Fin 1) q)
  rw [matmul40_apply, matmul40_apply, broadcastTo_1b_ab_apply]
  rfl

/-! ## A row's reduction spread back over the row -/

section Column
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- Row `r` with the column `k` put back on the reduced axis is the entry `(r, k)`. -/
theorem lift_row (h : S5000x40.Reduces [1] S5000) (r : Fin 5000) (k : Fin 40) : h.lift (ix1 r) k = ix2 r k :=
  funext fun ax => Fin.ext (by
    match ax with
    | ⟨0, _⟩ => rfl
    | ⟨1, _⟩ => rfl)

/-- The maximum along the columns, from the word of minus infinity, read at row `r`: the specification's row maximum. -/
theorem rowMax_apply (z : FVec Ideal S5000x40 .f32) (hφ : FKind.Formats .f32)
    (hacc : (0xFF800000#32 : BitVec 32) = FKind.maximumf.neutral .f32 hφ) (r : Fin 5000) :
    multiReduction (F := Ideal) .maximumf [1] S5000 z 0xFF800000#32 reduces_S5000x40_S5000 hφ hacc (ix1 r)
      = Cert.Sage.rowMax z r := by
  refine (Ideal.multiReduction_maximumf_single z 0xFF800000#32 reduces_S5000x40_S5000 hφ hacc (ix1 r)).trans ?_
  unfold Cert.Sage.rowMax
  exact congrArg (fun f : Fin 40 → EReal => (Finset.univ : Finset (Fin 40)).fold max (Ideal.ofBits .f32 0xFF800000#32) f)
    (funext fun k => congrArg z (lift_row reduces_S5000x40_S5000 r k))

/-- The sum along the columns read at row `r`: the sum over `k` of the entries `(r, k)`. -/
theorem rowSum_apply (z : FVec Ideal S5000x40 .f32) (hφ : FKind.Formats .f32)
    (hacc : (0x00000000#32 : BitVec 32) = FKind.add.neutral .f32 hφ) (r : Fin 5000) :
    multiReduction (F := Ideal) .add [1] S5000 z 0x00000000#32 reduces_S5000x40_S5000 hφ hacc (ix1 r)
      = ∑ k : Fin 40, z (ix2 r k) := by
  refine (Ideal.multiReduction_add_single z 0x00000000#32 reduces_S5000x40_S5000 hφ hacc (ix1 r)).trans ?_
  exact Finset.sum_congr rfl fun k _ => congrArg z (lift_row reduces_S5000x40_S5000 r k)

/-- A row quantity `[5000]` spread over the row through the column `[5000, 1]` reads, at `(r, c)`, the quantity of row `r`. -/
theorem spread_apply (x : FVec Ideal S5000 .f32) (r : Fin 5000) (c : Fin 40) :
    broadcastTo S5000x40 (shapeCast S5000x1 x shapeCasts_S5000_S5000x1) broadcasts_S5000x1_S5000x40 (ix2 r c) = x (ix1 r) :=
  (broadcastTo_a1_ab_apply _ broadcasts_S5000x1_S5000x40 r c).trans (shapeCast_a_a1_apply x shapeCasts_S5000_S5000x1 r 0)

/-! ## The output layer -/

/-- The logarithm of the softmax of the rows as the body computes it from its affine part `z`. -/
def kernelLogSoftmax (z : FVec Ideal S5000x40 .f32) : FVec Ideal S5000x40 .f32 :=
  subf
    (subf z (broadcastTo S5000x40 (shapeCast S5000x1
      (multiReduction (F := Ideal) .maximumf [1] S5000 z 0xFF800000#32 reduces_S5000x40_S5000 (.inl rfl) rfl)
      shapeCasts_S5000_S5000x1) broadcasts_S5000x1_S5000x40))
    (broadcastTo S5000x40 (log (shapeCast S5000x1
      (multiReduction (F := Ideal) .add [1] S5000
        (exp (subf z (broadcastTo S5000x40 (shapeCast S5000x1
          (multiReduction (F := Ideal) .maximumf [1] S5000 z 0xFF800000#32 reduces_S5000x40_S5000 (.inl rfl) rfl)
          shapeCasts_S5000_S5000x1) broadcasts_S5000x1_S5000x40)))
        0x00000000#32 reduces_S5000x40_S5000 (.inl rfl) rfl)
      shapeCasts_S5000_S5000x1)) broadcasts_S5000x1_S5000x40)

/-- It is the specification's: shift by the row's maximum, then subtract the logarithm of the row's sum of exponentials. -/
theorem kernelLogSoftmax_eq (z : FVec Ideal S5000x40 .f32) : kernelLogSoftmax z = Cert.Sage.logSoftmax z := by
  funext j
  obtain ⟨r, c, rfl⟩ : ∃ (r : Fin 5000) (c : Fin 40), j = ix2 r c := ⟨j 0, j 1, eq_ix2 j⟩
  have hM : ∀ c' : Fin 40, broadcastTo S5000x40 (shapeCast S5000x1
      (multiReduction (F := Ideal) .maximumf [1] S5000 z 0xFF800000#32 reduces_S5000x40_S5000 (.inl rfl) rfl)
      shapeCasts_S5000_S5000x1) broadcasts_S5000x1_S5000x40 (ix2 r c') = Cert.Sage.rowMax z r := fun c' =>
    (spread_apply _ r c').trans (rowMax_apply z (.inl rfl) rfl r)
  unfold kernelLogSoftmax Cert.Sage.logSoftmax
  show (z (ix2 r c) - _) - _ = (z (ix2 r c) - Cert.Sage.rowMax z r) - _
  refine congrArg₂ (· - ·) (congrArg (z (ix2 r c) - ·) (hM c)) ?_
  refine (broadcastTo_a1_ab_apply _ broadcasts_S5000x1_S5000x40 r c).trans ?_
  show Ideal.log (shapeCast S5000x1 _ shapeCasts_S5000_S5000x1 (ix2 r (0 : Fin 1))) = _
  refine congrArg Ideal.log ?_
  refine (shapeCast_a_a1_apply _ shapeCasts_S5000_S5000x1 r 0).trans ?_
  refine (rowSum_apply _ (.inl rfl) rfl r).trans ?_
  exact Finset.sum_congr rfl fun k _ => congrArg (fun m => Ideal.exp (z (ix2 r k) - m)) (hM k)

/-- The third body is the output layer on its block. -/
theorem pay2_eq (v0 v3 : Vec Ideal S5000x128 .f32) (v6 v8 : Vec Ideal S128x40 .f32) (v13 : Vec Ideal S1x40 .f32) :
    k2_pay1 (F := Ideal) v0 v3 v6 v8 v13 = Cert.Sage.sageOut v0 v3 v6 v8 (Cert.Sage.rowVec v13) := by
  have hz : addf (addf
        (matmul (F := Ideal) dot_S5000x128_S128x40_S5000x40_1_0_0_1_n_n none (truncf .bf16 v0 bitsLt_bf16_f32) (truncf .bf16 v6 bitsLt_bf16_f32)
          (constant (F := Ideal) S5000x40 .f32 0x00000000#32))
        (matmul (F := Ideal) dot_S5000x128_S128x40_S5000x40_1_0_0_1_n_n none (truncf .bf16 v3 bitsLt_bf16_f32) (truncf .bf16 v8 bitsLt_bf16_f32)
          (constant (F := Ideal) S5000x40 .f32 0x00000000#32)))
      (broadcastTo S5000x40 v13 broadcasts_S1x40_S5000x40)
      = Cert.Sage.affine v0 v3 v6 v8 (Cert.Sage.rowVec v13) := by
    funext j
    obtain ⟨p, q, rfl⟩ : ∃ (p : Fin 5000) (q : Fin 40), j = ix2 p q := ⟨j 0, j 1, eq_ix2 j⟩
    exact affine40_apply v0 v3 v6 v8 v13 p q
  unfold k2_pay1 Cert.Sage.sageOut
  simp only [shapeCast_self]
  rw [← kernelLogSoftmax_eq, ← hz]
  rfl

end Cert.Sage.Payload

end
-- ==== Proof.SpecRows.lean ====
/-
  Every entry of a layer's result depends on one row of the two input matrices. So the layer computed on a block of
  rows is the corresponding block of the layer computed on the whole matrices: if row `r` of the small matrices is
  row `R` of the large ones, entry `(r, q)` of the small result is entry `(R, q)` of the large one. For the output
  layer this uses that a row's maximum and a row's sum of exponentials are taken over that row alone.
-/
import proofs.«102452_j14980845929105_1_alg».proof.Proof.Spec

noncomputable section

open scoped BigOperators

namespace Cert.Sage

open Idealize.ShloMosaic Idealize.ShloMosaic.ValueIdx

variable {n N m c : Nat}

theorem rowDot_rows (a : Mat n m) (A : Mat N m) (w : Mat m c) (r : Fin n) (R : Fin N) (q : Fin c)
    (h : ∀ k, a (ix2 r k) = A (ix2 R k)) : rowDot a w (ix2 r q) = rowDot A w (ix2 R q) := by
  show ∑ k : Fin m, a (ix2 r k) * w (ix2 k q) = ∑ k : Fin m, A (ix2 R k) * w (ix2 k q)
  exact Finset.sum_congr rfl fun k _ => by rw [h k]

theorem affine_rows (mean x : Mat n m) (Mean X : Mat N m) (Wl Wr : Mat m c) (b : Row c) (r : Fin n) (R : Fin N) (q : Fin c)
    (hm : ∀ k, mean (ix2 r k) = Mean (ix2 R k)) (hx : ∀ k, x (ix2 r k) = X (ix2 R k)) :
    affine mean x Wl Wr b (ix2 r q) = affine Mean X Wl Wr b (ix2 R q) := by
  show (rowDot mean Wl (ix2 r q) + b (ix1 q)) + rowDot x Wr (ix2 r q) = (rowDot Mean Wl (ix2 R q) + b (ix1 q)) + rowDot X Wr (ix2 R q)
  rw [rowDot_rows mean Mean Wl r R q hm, rowDot_rows x X Wr r R q hx]

theorem sageRelu_rows (mean x : Mat n m) (Mean X : Mat N m) (Wl Wr : Mat m c) (b : Row c) (r : Fin n) (R : Fin N) (q : Fin c)
    (hm : ∀ k, mean (ix2 r k) = Mean (ix2 R k)) (hx : ∀ k, x (ix2 r k) = X (ix2 R k)) :
    sageRelu mean x Wl Wr b (ix2 r q) = sageRelu Mean X Wl Wr b (ix2 R q) := by
  show max (affine mean x Wl Wr b (ix2 r q)) zeroWord = max (affine Mean X Wl Wr b (ix2 R q)) zeroWord
  rw [affine_rows mean x Mean X Wl Wr b r R q hm hx]

theorem logSoftmax_rows (z : Mat n c) (Z : Mat N c) (r : Fin n) (R : Fin N) (q : Fin c)
    (h : ∀ j, z (ix2 r j) = Z (ix2 R j)) : logSoftmax z (ix2 r q) = logSoftmax Z (ix2 R q) := by
  have hM : rowMax z r = rowMax Z R := by
    unfold rowMax
    rw [show (fun j => z (ix2 r j)) = (fun j => Z (ix2 R j)) from funext h]
  show (z (ix2 r q) - rowMax z r) - Ideal.log (∑ j : Fin c, Ideal.exp (z (ix2 r j) - rowMax z r))
     = (Z (ix2 R q) - rowMax Z R) - Ideal.log (∑ j : Fin c, Ideal.exp (Z (ix2 R j) - rowMax Z R))
  rw [hM, h q]
  exact congrArg _ (congrArg _ (Finset.sum_congr rfl fun j _ => by rw [h j]))

theorem sageOut_rows (mean x : Mat n m) (Mean X : Mat N m) (Wl Wr : Mat m c) (b : Row c) (r : Fin n) (R : Fin N) (q : Fin c)
    (hm : ∀ k, mean (ix2 r k) = Mean (ix2 R k)) (hx : ∀ k, x (ix2 r k) = X (ix2 R k)) :
    sageOut mean x Wl Wr b (ix2 r q) = sageOut Mean X Wl Wr b (ix2 R q) :=
  logSoftmax_rows _ _ r R q fun j => affine_rows mean x Mean X Wl Wr b r R j hm hx

end Cert.Sage

end
-- ==== Proof.Blocks.lean ====
/-
  From blocks to arrays. Each of the three regions runs its body at twenty grid points; point `t` reads rows
  `5000·t … 5000·t + 4999` of the neighbour means and of the node features, the whole weight matrices and the
  one-row bias, and writes the same rows of its output array. The body computes the layer function on those blocks.
  Because every entry of a layer depends on one row of the two row-blocked inputs, what point `t` writes back is block
  `t` of the layer function of the WHOLE arrays; the twenty blocks cover the hundred thousand rows; so the output
  array, when the region has flushed its last block, is the layer function of the arrays the region found. All of this
  holds for any contents `V` of the buffers at the region's entry.
-/
import proofs.«102452_j14980845929105_1_alg».proof.Proof.Payload
import proofs.«102452_j14980845929105_1_alg».proof.Proof.KernelIdealFrameP
import proofs.«102452_j14980845929105_1_alg».proof.Proof.SpecRows
import Idealize.ShloMosaic.Lib.Pipeline.Value
import Idealize.ShloMosaic.Lib.ValueIdx

set_option maxRecDepth 16384

noncomputable section

namespace Cert.KernelIdeal.Blocks

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

-- the buffers' contents when a region is entered: every statement here holds for any such contents
variable (V : (c : Dev nD) → (b : Ref sig .tc) → Buf (Elt Ideal) ((c : Thread nD τ).loc b))

theorem hz : (![0, 0] : Fin 2 → Nat) = fun _ => 0 := funext fun a => by fin_cases a <;> rfl

/-! ## Region 0: the first hidden layer -/

/-- The index maps of region 0's six windows, decided once over the twenty grid points: the two row-blocked inputs move
    with the output's row block, the weights and the bias stay at block zero, and the output's row block is below twenty. -/
theorem idx0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every one of the twenty row blocks is some grid point's. -/
theorem onto0 : ∀ q0 : Fin 20, ∃ t : Fin cfg0.N, win0_5.index t = ![q0.val, 0] :=
  (by decide +kernel : ∀ q0 : Fin 20, ∃ t : Fin grid0.N, win0_5.index t = ![q0.val, 0])

/-- The whole-matrix layer of region 0, of the five arrays as the region finds them. -/
abbrev layer0 (c : Dev nD) : Cert.Sage.Mat 100000 128 :=
  Cert.Sage.sageRelu (V c main_v23) (V c main_arg0) (V c main_arg2) (V c main_arg4) (Cert.Sage.rowVec (V c main_v24))

/-- What grid point `t` writes back is rows `5000·t … 5000·t + 4999` of the whole-matrix layer: the body computes the
    layer on the point's blocks, every entry of the layer depends on one row of the two row-blocked inputs, and block
    row `r` of point `t` is row `5000·t + r` of the arrays. -/
theorem flushed0 (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  rw [Cert.Sage.Payload.pay0_eq]
  obtain ⟨e00, e01, e10, e11, e20, e21, e30, e31, e40, e41, e51, e50⟩ := idx0 t
  have hWl : iblk0 V c 2 t = V c main_arg2 := funext fun y => congrArg (V c main_arg2) (funext fun a => Fin.ext (by
    match a with
    | ⟨0, _⟩ => show win0_2.index t (0 : Fin 2) * 128 + 1 * (y 0).val = (y 0).val; omega
    | ⟨1, _⟩ => show win0_2.index t (1 : Fin 2) * 128 + 1 * (y 1).val = (y 1).val; omega))
  have hWr : iblk0 V c 4 t = V c main_arg4 := funext fun y => congrArg (V c main_arg4) (funext fun a => Fin.ext (by
    match a with
    | ⟨0, _⟩ => show win0_4.index t (0 : Fin 2) * 128 + 1 * (y 0).val = (y 0).val; omega
    | ⟨1, _⟩ => show win0_4.index t (1 : Fin 2) * 128 + 1 * (y 1).val = (y 1).val; omega))
  have hB : iblk0 V c 3 t = V c main_v24 := funext fun y => congrArg (V c main_v24) (funext fun a => Fin.ext (by
    match a with
    | ⟨0, _⟩ => show win0_3.index t (0 : Fin 2) * 1 + 1 * (y 0).val = (y 0).val; omega
    | ⟨1, _⟩ => show win0_3.index t (1 : Fin 2) * 128 + 1 * (y 1).val = (y 1).val; omega))
  rw [hWl, hWr, hB]
  funext j
  obtain ⟨r, q, rfl⟩ : ∃ (r : Fin 5000) (q : Fin 128), j = ix2 r q := ⟨j 0, j 1, eq_ix2 j⟩
  have hr : r.val < 5000 := r.isLt
  have hR : ((cfg0.win 5).blk t).view.emb (ix2 r q) = ix2 (⟨win0_5.index t (0 : Fin 2) * 5000 + r.val, by omega⟩ : Fin 100000) q :=
    funext fun a => Fin.ext (by
      match a with
      | ⟨0, _⟩ => show win0_5.index t (0 : Fin 2) * 5000 + 1 * r.val = win0_5.index t (0 : Fin 2) * 5000 + r.val; omega
      | ⟨1, _⟩ => show win0_5.index t (1 : Fin 2) * 128 + 1 * q.val = q.val; omega)
  show Cert.Sage.sageRelu (iblk0 V c 0 t) (iblk0 V c 1 t) (V c main_arg2) (V c main_arg4) (Cert.Sage.rowVec (V c main_v24)) (ix2 r q)
    = layer0 V c (((cfg0.win 5).blk t).view.emb (ix2 r q))
  rw [hR]
  refine Cert.Sage.sageRelu_rows _ _ _ _ _ _ _ r _ q (fun k => ?_) (fun k => ?_)
  · show V c main_v23 (((cfg0.win 0).blk t).view.emb (ix2 r k)) = V c main_v23 (ix2 _ k)
    exact congrArg (V c main_v23) (funext fun a => Fin.ext (by
      match a with
      | ⟨0, _⟩ => show win0_0.index t (0 : Fin 2) * 5000 + 1 * r.val = win0_5.index t (0 : Fin 2) * 5000 + r.val; omega
      | ⟨1, _⟩ => show win0_0.index t (1 : Fin 2) * 128 + 1 * k.val = k.val; omega))
  · show V c main_arg0 (((cfg0.win 1).blk t).view.emb (ix2 r k)) = V c main_arg0 (ix2 _ k)
    exact congrArg (V c main_arg0) (funext fun a => Fin.ext (by
      match a with
      | ⟨0, _⟩ => show win0_1.index t (0 : Fin 2) * 5000 + 1 * r.val = win0_5.index t (0 : Fin 2) * 5000 + r.val; omega
      | ⟨1, _⟩ => show win0_1.index t (1 : Fin 2) * 128 + 1 * k.val = k.val; omega))

/-- An index of the output array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v25).slice (win0_5.rect t)).set ↔ _
  rw [View.set_slice_whole, Rect.mem_set_unit]
  exact Iff.rfl

/-- The twenty blocks of five thousand rows cover the hundred thousand rows: row `i` lies in block `i / 5000`. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- Region 0's output array, when the region has flushed its last block, is the whole-matrix layer. -/
theorem final0 (c : Dev nD) : (dat0 V c).arrAt 5 cfg0.N = layer0 V c :=
  (dat0 V c).arrAt_eq_of_cover 5 (layer0 V c) (fun t _ => flushed0 V c t) (cover0)

/-! ## Region 1: the second hidden layer -/

/-- The index maps of region 1's six windows, decided once over the twenty grid points: the two row-blocked inputs move
    with the output's row block, the weights and the bias stay at block zero, and the output's row block is below twenty. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Every one of the twenty row blocks is some grid point's. -/
theorem onto1 : ∀ q0 : Fin 20, ∃ t : Fin cfg1.N, win1_5.index t = ![q0.val, 0] :=
  (by decide +kernel : ∀ q0 : Fin 20, ∃ t : Fin grid1.N, win1_5.index t = ![q0.val, 0])

/-- The whole-matrix layer of region 1, of the five arrays as the region finds them. -/
abbrev layer1 (c : Dev nD) : Cert.Sage.Mat 100000 128 :=
  Cert.Sage.sageRelu (V c main_v37) (V c main_v25) (V c main_arg5) (V c main_arg7) (Cert.Sage.rowVec (V c main_v38))

/-- What grid point `t` writes back is rows `5000·t … 5000·t + 4999` of the whole-matrix layer: the body computes the
    layer on the point's blocks, every entry of the layer depends on one row of the two row-blocked inputs, and block
    row `r` of point `t` is row `5000·t + r` of the arrays. -/
theorem flushed1 (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Cert.Sage.Payload.pay1_eq]
  obtain ⟨e00, e01, e10, e11, e20, e21, e30, e31, e40, e41, e51, e50⟩ := idx1 t
  have hWl : iblk1 V c 2 t = V c main_arg5 := funext fun y => congrArg (V c main_arg5) (funext fun a => Fin.ext (by
    match a with
    | ⟨0, _⟩ => show win1_2.index t (0 : Fin 2) * 128 + 1 * (y 0).val = (y 0).val; omega
    | ⟨1, _⟩ => show win1_2.index t (1 : Fin 2) * 128 + 1 * (y 1).val = (y 1).val; omega))
  have hWr : iblk1 V c 4 t = V c main_arg7 := funext fun y => congrArg (V c main_arg7) (funext fun a => Fin.ext (by
    match a with
    | ⟨0, _⟩ => show win1_4.index t (0 : Fin 2) * 128 + 1 * (y 0).val = (y 0).val; omega
    | ⟨1, _⟩ => show win1_4.index t (1 : Fin 2) * 128 + 1 * (y 1).val = (y 1).val; omega))
  have hB : iblk1 V c 3 t = V c main_v38 := funext fun y => congrArg (V c main_v38) (funext fun a => Fin.ext (by
    match a with
    | ⟨0, _⟩ => show win1_3.index t (0 : Fin 2) * 1 + 1 * (y 0).val = (y 0).val; omega
    | ⟨1, _⟩ => show win1_3.index t (1 : Fin 2) * 128 + 1 * (y 1).val = (y 1).val; omega))
  rw [hWl, hWr, hB]
  funext j
  obtain ⟨r, q, rfl⟩ : ∃ (r : Fin 5000) (q : Fin 128), j = ix2 r q := ⟨j 0, j 1, eq_ix2 j⟩
  have hr : r.val < 5000 := r.isLt
  have hR : ((cfg1.win 5).blk t).view.emb (ix2 r q) = ix2 (⟨win1_5.index t (0 : Fin 2) * 5000 + r.val, by omega⟩ : Fin 100000) q :=
    funext fun a => Fin.ext (by
      match a with
      | ⟨0, _⟩ => show win1_5.index t (0 : Fin 2) * 5000 + 1 * r.val = win1_5.index t (0 : Fin 2) * 5000 + r.val; omega
      | ⟨1, _⟩ => show win1_5.index t (1 : Fin 2) * 128 + 1 * q.val = q.val; omega)
  show Cert.Sage.sageRelu (iblk1 V c 0 t) (iblk1 V c 1 t) (V c main_arg5) (V c main_arg7) (Cert.Sage.rowVec (V c main_v38)) (ix2 r q)
    = layer1 V c (((cfg1.win 5).blk t).view.emb (ix2 r q))
  rw [hR]
  refine Cert.Sage.sageRelu_rows _ _ _ _ _ _ _ r _ q (fun k => ?_) (fun k => ?_)
  · show V c main_v37 (((cfg1.win 0).blk t).view.emb (ix2 r k)) = V c main_v37 (ix2 _ k)
    exact congrArg (V c main_v37) (funext fun a => Fin.ext (by
      match a with
      | ⟨0, _⟩ => show win1_0.index t (0 : Fin 2) * 5000 + 1 * r.val = win1_5.index t (0 : Fin 2) * 5000 + r.val; omega
      | ⟨1, _⟩ => show win1_0.index t (1 : Fin 2) * 128 + 1 * k.val = k.val; omega))
  · show V c main_v25 (((cfg1.win 1).blk t).view.emb (ix2 r k)) = V c main_v25 (ix2 _ k)
    exact congrArg (V c main_v25) (funext fun a => Fin.ext (by
      match a with
      | ⟨0, _⟩ => show win1_1.index t (0 : Fin 2) * 5000 + 1 * r.val = win1_5.index t (0 : Fin 2) * 5000 + r.val; omega
      | ⟨1, _⟩ => show win1_1.index t (1 : Fin 2) * 128 + 1 * k.val = k.val; omega))

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v39).slice (win1_5.rect t)).set ↔ _
  rw [View.set_slice_whole, Rect.mem_set_unit]
  exact Iff.rfl

/-- The twenty blocks of five thousand rows cover the hundred thousand rows: row `i` lies in block `i / 5000`. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- Region 1's output array, when the region has flushed its last block, is the whole-matrix layer. -/
theorem final1 (c : Dev nD) : (dat1 V c).arrAt 5 cfg1.N = layer1 V c :=
  (dat1 V c).arrAt_eq_of_cover 5 (layer1 V c) (fun t _ => flushed1 V c t) (cover1)

/-! ## Region 2: the output layer -/

/-- The index maps of region 2's six windows, decided once over the twenty grid points: the two row-blocked inputs move
    with the output's row block, the weights and the bias stay at block zero, and the output's row block is below twenty. -/
theorem idx2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 19 :=
  (by decide +kernel : ∀ t : Fin grid2.N, _)

/-- Every one of the twenty row blocks is some grid point's. -/
theorem onto2 : ∀ q0 : Fin 20, ∃ t : Fin cfg2.N, win2_5.index t = ![q0.val, 0] :=
  (by decide +kernel : ∀ q0 : Fin 20, ∃ t : Fin grid2.N, win2_5.index t = ![q0.val, 0])

/-- The whole-matrix layer of region 2, of the five arrays as the region finds them. -/
abbrev layer2 (c : Dev nD) : Cert.Sage.Mat 100000 40 :=
  Cert.Sage.sageOut (V c main_v51) (V c main_v39) (V c main_arg8) (V c main_arg10) (Cert.Sage.rowVec (V c main_v52))

/-- What grid point `t` writes back is rows `5000·t … 5000·t + 4999` of the whole-matrix layer: the body computes the
    layer on the point's blocks, every entry of the layer depends on one row of the two row-blocked inputs, and block
    row `r` of point `t` is row `5000·t + r` of the arrays. -/
theorem flushed2 (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x40) hz, View.ld_unit_zero (S := S1x40) hz]
  rw [Cert.Sage.Payload.pay2_eq]
  obtain ⟨e00, e01, e10, e11, e20, e21, e30, e31, e40, e41, e51, e50⟩ := idx2 t
  have hWl : iblk2 V c 2 t = V c main_arg8 := funext fun y => congrArg (V c main_arg8) (funext fun a => Fin.ext (by
    match a with
    | ⟨0, _⟩ => show win2_2.index t (0 : Fin 2) * 128 + 1 * (y 0).val = (y 0).val; omega
    | ⟨1, _⟩ => show win2_2.index t (1 : Fin 2) * 40 + 1 * (y 1).val = (y 1).val; omega))
  have hWr : iblk2 V c 4 t = V c main_arg10 := funext fun y => congrArg (V c main_arg10) (funext fun a => Fin.ext (by
    match a with
    | ⟨0, _⟩ => show win2_4.index t (0 : Fin 2) * 128 + 1 * (y 0).val = (y 0).val; omega
    | ⟨1, _⟩ => show win2_4.index t (1 : Fin 2) * 40 + 1 * (y 1).val = (y 1).val; omega))
  have hB : iblk2 V c 3 t = V c main_v52 := funext fun y => congrArg (V c main_v52) (funext fun a => Fin.ext (by
    match a with
    | ⟨0, _⟩ => show win2_3.index t (0 : Fin 2) * 1 + 1 * (y 0).val = (y 0).val; omega
    | ⟨1, _⟩ => show win2_3.index t (1 : Fin 2) * 40 + 1 * (y 1).val = (y 1).val; omega))
  rw [hWl, hWr, hB]
  funext j
  obtain ⟨r, q, rfl⟩ : ∃ (r : Fin 5000) (q : Fin 40), j = ix2 r q := ⟨j 0, j 1, eq_ix2 j⟩
  have hr : r.val < 5000 := r.isLt
  have hR : ((cfg2.win 5).blk t).view.emb (ix2 r q) = ix2 (⟨win2_5.index t (0 : Fin 2) * 5000 + r.val, by omega⟩ : Fin 100000) q :=
    funext fun a => Fin.ext (by
      match a with
      | ⟨0, _⟩ => show win2_5.index t (0 : Fin 2) * 5000 + 1 * r.val = win2_5.index t (0 : Fin 2) * 5000 + r.val; omega
      | ⟨1, _⟩ => show win2_5.index t (1 : Fin 2) * 40 + 1 * q.val = q.val; omega)
  show Cert.Sage.sageOut (iblk2 V c 0 t) (iblk2 V c 1 t) (V c main_arg8) (V c main_arg10) (Cert.Sage.rowVec (V c main_v52)) (ix2 r q)
    = layer2 V c (((cfg2.win 5).blk t).view.emb (ix2 r q))
  rw [hR]
  refine Cert.Sage.sageOut_rows _ _ _ _ _ _ _ r _ q (fun k => ?_) (fun k => ?_)
  · show V c main_v51 (((cfg2.win 0).blk t).view.emb (ix2 r k)) = V c main_v51 (ix2 _ k)
    exact congrArg (V c main_v51) (funext fun a => Fin.ext (by
      match a with
      | ⟨0, _⟩ => show win2_0.index t (0 : Fin 2) * 5000 + 1 * r.val = win2_5.index t (0 : Fin 2) * 5000 + r.val; omega
      | ⟨1, _⟩ => show win2_0.index t (1 : Fin 2) * 128 + 1 * k.val = k.val; omega))
  · show V c main_v39 (((cfg2.win 1).blk t).view.emb (ix2 r k)) = V c main_v39 (ix2 _ k)
    exact congrArg (V c main_v39) (funext fun a => Fin.ext (by
      match a with
      | ⟨0, _⟩ => show win2_1.index t (0 : Fin 2) * 5000 + 1 * r.val = win2_5.index t (0 : Fin 2) * 5000 + r.val; omega
      | ⟨1, _⟩ => show win2_1.index t (1 : Fin 2) * 128 + 1 * k.val = k.val; omega))

/-- An index of the output array is in point `t`'s block iff each coordinate is in the block's range on its axis. -/
theorem mem_blk2 (t : Fin cfg2.N) (i : S100000x40.Idx) :
    i ∈ ((cfg2.win 5).blk t).view.set ↔ ∀ a : Fin 2, win2_5.index t a * S5000x40.size a ≤ (i a).val ∧ (i a).val < win2_5.index t a * S5000x40.size a + S5000x40.size a := by
  show i ∈ ((View.whole main_v53).slice (win2_5.rect t)).set ↔ _
  rw [View.set_slice_whole, Rect.mem_set_unit]
  exact Iff.rfl

/-- The twenty blocks of five thousand rows cover the hundred thousand rows: row `i` lies in block `i / 5000`. -/
theorem cover2 (i : S100000x40.Idx) :
    ∃ t : Fin cfg2.N, (cfg2.win 5).flush t = true ∧ i ∈ ((cfg2.win 5).blk t).view.set := by
  have hi0 : (i 0).val < 100000 := (i 0).isLt
  have hi1 : (i 1).val < 40 := (i 1).isLt
  obtain ⟨t, ht⟩ := onto2 ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 40 ≤ (i 1).val ∧ (i 1).val < win2_5.index t (1 : Fin 2) * 40 + 40; omega

/-- Region 2's output array, when the region has flushed its last block, is the whole-matrix layer. -/
theorem final2 (c : Dev nD) : (dat2 V c).arrAt 5 cfg2.N = layer2 V c :=
  (dat2 V c).arrAt_eq_of_cover 5 (layer2 V c) (fun t _ => flushed2 V c t) (cover2)

end Cert.KernelIdeal.Blocks

end
-- ==== Proof.RefLayers.lean ====
/-
  The reference program, stage by stage, is the specification's layers.

  The reference computes three mean-aggregation layers. Each gathers the rows of the previous layer's result along
  the edge list, adds them up per destination node, divides by the node's in-degree clamped at one from below
  (the neighbour means), and returns `mean · Wl + b + h · Wr`, clamped at zero for the two hidden layers and passed
  through a row-wise log-softmax for the last one.

  The second and third layers apply literally the same operations as the first, with the same constants, to the
  previous layer's result, so their stages are the first layer's stages at other arguments. The first hidden layer
  and the output layer are then read entry by entry: a product of matrices at `(r, c)` is the sum over `k` of the
  left operand at `(r, k)` times the right operand at `(k, c)`, the bias is read at the column, and the row maximum
  of the log-softmax is a fold of `max` over the row started from minus infinity.
-/
import proofs.«102452_j14980845929105_1_alg».proof.Proof.RefStages
import proofs.«102452_j14980845929105_1_alg».proof.Proof.Spec
import Idealize.ShloMosaic.PureOps.Reduce
import Idealize.ShloMosaic.PureOps.Ideal.Laws
import Idealize.ShloMosaic.Lib.ValueIdx

noncomputable section

open scoped BigOperators

namespace Cert.Sage.Ref

open Cert.ReferenceIdeal Cert.ReferenceIdeal.ReadP Idealize.ShloMosaic Idealize.ShloMosaic.ValueIdx

/-! ## The second and third layers apply the first layer's operations to the previous layer's result -/

/-- The neighbour means of the second layer are the first layer's mean aggregation applied to the first hidden
    layer: the same gather, scatter-add, edge count and division, with the same constants. -/
theorem mean2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v46 (F := Ideal) x0 x1 x2 x3 x4 = val_main_v21 (F := Ideal) (val_main_v28 (F := Ideal) x0 x1 x2 x3 x4) x1 := rfl

/-- The second hidden layer is the first layer's function of the first hidden layer and the second layer's weights. -/
theorem h2_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v53 (F := Ideal) x0 x1 x2 x3 x4 x5 x6 x7 = val_main_v28 (F := Ideal) (val_main_v28 (F := Ideal) x0 x1 x2 x3 x4) x1 x5 x6 x7 := rfl

/-- The neighbour means of the output layer are the same mean aggregation applied to the second hidden layer. -/
theorem mean3_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v71 (F := Ideal) x0 x1 x2 x3 x4 x5 x6 x7 = val_main_v21 (F := Ideal) (val_main_v53 (F := Ideal) x0 x1 x2 x3 x4 x5 x6 x7) x1 := rfl

/-! ## The first hidden layer -/

/-- Entry `(r, c)` of a product reads the left operand at row `r`, column `k`. -/
theorem lidx22 (r : Fin 100000) (c k : Fin 128) : lidx_main_v22 (ix2 r c) k = ix2 r k :=
  funext fun a => Fin.ext (by match a with | ⟨0, _⟩ => rfl | ⟨1, _⟩ => rfl)
/-- Entry `(r, c)` of a product reads the right operand at row `k`, column `c`. -/
theorem ridx22 (r : Fin 100000) (c k : Fin 128) : ridx_main_v22 (ix2 r c) k = ix2 k c :=
  funext fun a => Fin.ext (by match a with | ⟨0, _⟩ => rfl | ⟨1, _⟩ => rfl)
theorem lidx26 (r : Fin 100000) (c k : Fin 128) : lidx_main_v26 (ix2 r c) k = ix2 r k :=
  funext fun a => Fin.ext (by match a with | ⟨0, _⟩ => rfl | ⟨1, _⟩ => rfl)
theorem ridx26 (r : Fin 100000) (c k : Fin 128) : ridx_main_v26 (ix2 r c) k = ix2 k c :=
  funext fun a => Fin.ext (by match a with | ⟨0, _⟩ => rfl | ⟨1, _⟩ => rfl)
/-- The bias, broadcast along the rows, is read at the column. -/
theorem bidx24 (r : Fin 100000) (c : Fin 128) : idx_main_v23 (idx_main_v24 (ix2 r c)) = ix1 c :=
  funext fun a => Fin.ext (by match a with | ⟨0, _⟩ => rfl)

/-- The first hidden layer of the reference is the specification's clamped affine layer of the neighbour means and
    the node features: entry `(r, c)` is `max ((∑ₖ mean r k · Wl k c + b c) + ∑ₖ h r k · Wr k c) 0`. -/
theorem h1_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v28 (F := Ideal) x0 x1 x2 x3 x4 = Cert.Sage.sageRelu (val_main_v21 (F := Ideal) x0 x1) x0 x2 x4 x3 := by
  funext i
  obtain ⟨r, c, rfl⟩ : ∃ (r : Fin 100000) (c : Fin 128), i = ix2 r c := ⟨i 0, i 1, eq_ix2 i⟩
  rw [val_main_v28_apply, val_main_v27_apply, val_main_v25_apply, val_main_v22_apply, val_main_v24_apply,
    val_main_v23_apply, val_main_v26_apply, val_main_call0_v0_apply, val_main_call0_cst_apply]
  simp only [lidx22, ridx22, lidx26, ridx26, bidx24, Ideal.addf_def, Ideal.maximumf_def, Ideal.ofBits_def]
  unfold Cert.Sage.sageRelu Cert.Sage.affine Cert.Sage.rowDot
  rfl

/-! ## The output layer -/

theorem lidx72 (r : Fin 100000) (c : Fin 40) (k : Fin 128) : lidx_main_v72 (ix2 r c) k = ix2 r k :=
  funext fun a => Fin.ext (by match a with | ⟨0, _⟩ => rfl | ⟨1, _⟩ => rfl)
theorem ridx72 (r : Fin 100000) (c : Fin 40) (k : Fin 128) : ridx_main_v72 (ix2 r c) k = ix2 k c :=
  funext fun a => Fin.ext (by match a with | ⟨0, _⟩ => rfl | ⟨1, _⟩ => rfl)
theorem lidx76 (r : Fin 100000) (c : Fin 40) (k : Fin 128) : lidx_main_v76 (ix2 r c) k = ix2 r k :=
  funext fun a => Fin.ext (by match a with | ⟨0, _⟩ => rfl | ⟨1, _⟩ => rfl)
theorem ridx76 (r : Fin 100000) (c : Fin 40) (k : Fin 128) : ridx_main_v76 (ix2 r c) k = ix2 k c :=
  funext fun a => Fin.ext (by match a with | ⟨0, _⟩ => rfl | ⟨1, _⟩ => rfl)
theorem bidx74 (r : Fin 100000) (c : Fin 40) : idx_main_v73 (idx_main_v74 (ix2 r c)) = ix1 c :=
  funext fun a => Fin.ext (by match a with | ⟨0, _⟩ => rfl)

/-- Before its log-softmax the output layer is the specification's affine layer of the third neighbour means and the
    second hidden layer. -/
theorem z_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x40, .f32⟩ : BufTy).Contents (Elt Ideal)) (x9 : (⟨S40, .f32⟩ : BufTy).Contents (Elt Ideal)) (x10 : (⟨S128x40, .f32⟩ : BufTy).Contents (Elt Ideal)) :
    val_main_v77 (F := Ideal) x0 x1 x2 x3 x4 x5 x6 x7 x8 x9 x10
      = Cert.Sage.affine (val_main_v71 (F := Ideal) x0 x1 x2 x3 x4 x5 x6 x7) (val_main_v53 (F := Ideal) x0 x1 x2 x3 x4 x5 x6 x7) x8 x10 x9 := by
  funext i
  obtain ⟨r, c, rfl⟩ : ∃ (r : Fin 100000) (c : Fin 40), i = ix2 r c := ⟨i 0, i 1, eq_ix2 i⟩
  rw [val_main_v77_apply, val_main_v75_apply, val_main_v72_apply, val_main_v74_apply, val_main_v73_apply,
    val_main_v76_apply]
  simp only [lidx72, ridx72, lidx76, ridx76, bidx74, Ideal.addf_def]
  unfold Cert.Sage.affine Cert.Sage.rowDot
  rfl

/-- Dropping the column axis of a `[100000, 40]` matrix leaves its rows. -/
theorem reduces_cols : S100000x40.Reduces [1] S100000 := by decide

/-- Row `r` with column `k` put back is `(r, k)`. -/
theorem lift_row (h : S100000x40.Reduces [1] S100000) (r : Fin 100000) (k : Fin (S100000x40.size 1)) :
    h.lift (ix1 r) k = ix2 r (⟨k.val, k.isLt⟩ : Fin 40) := by
  funext c; apply Fin.ext
  fin_cases c <;> rfl

/-- For any matrix and any starting value: the maximum of the starting value with the fold of `max` over row `r`,
    the row read through the reduction's index map, is the fold of `max` over the columns of row `r`: the fold is
    already at least its starting value. -/
theorem fold_row (z : (⟨S100000x40, .f32⟩ : BufTy).Contents (Elt Ideal)) (w : Ideal .f32) (r : Fin 100000) :
    FloatOps.maximumf (F := Ideal) w
        ((Finset.univ : Finset (Fin (S100000x40.size 1))).fold (FloatOps.maximumf (F := Ideal)) w
          (z ∘ reduces_cols.lift (ix1 r)))
      = (Finset.univ : Finset (Fin 40)).fold max w (fun j => z (ix2 r j)) := by
  have hf : (z ∘ reduces_cols.lift (ix1 r)) = fun j : Fin 40 => z (ix2 r j) :=
    funext fun k => congrArg z (lift_row reduces_cols r k)
  refine (congrArg (fun f => max w (Finset.fold max w f (Finset.univ : Finset (Fin 40)))) hf).trans ?_
  exact Cert.Sage.max_start_fold _ _ _

/-- The reference's row maximum — the maximum of minus infinity with the fold of `max` over the row from minus
    infinity — is the specification's. -/
theorem rowMax_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x40, .f32⟩ : BufTy).Contents (Elt Ideal)) (x9 : (⟨S40, .f32⟩ : BufTy).Contents (Elt Ideal)) (x10 : (⟨S128x40, .f32⟩ : BufTy).Contents (Elt Ideal)) (r : Fin 100000) :
    val_main_call2_v2 (F := Ideal) x0 x1 x2 x3 x4 x5 x6 x7 x8 x9 x10 (ix1 r) = Cert.Sage.rowMax (val_main_v77 (F := Ideal) x0 x1 x2 x3 x4 x5 x6 x7 x8 x9 x10) r := by
  rw [val_main_call2_v2_apply, val_main_call2_v1_apply, val_main_call2_cst_0_apply]
  unfold val_main_call2_v0
  generalize val_main_v77 (F := Ideal) x0 x1 x2 x3 x4 x5 x6 x7 x8 x9 x10 = z
  rw [Host.reduce_eq_fold_single (FloatOps.maximumf (F := Ideal) (φ := .f32)) z _
    Gen.reducesTo_S100000x40_S100000_d1 reduces_cols Gen.h_S_ (ix1 r), val_main_call2_cst_apply, Ideal.ofBits_def]
  unfold Cert.Sage.rowMax
  exact fold_row z _ r

/-- Every entry of the output layer less its row's maximum. -/
theorem shifted_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x40, .f32⟩ : BufTy).Contents (Elt Ideal)) (x9 : (⟨S40, .f32⟩ : BufTy).Contents (Elt Ideal)) (x10 : (⟨S128x40, .f32⟩ : BufTy).Contents (Elt Ideal)) (r : Fin 100000) (c : Fin 40) :
    val_main_call2_v5 (F := Ideal) x0 x1 x2 x3 x4 x5 x6 x7 x8 x9 x10 (ix2 r c)
      = val_main_v77 (F := Ideal) x0 x1 x2 x3 x4 x5 x6 x7 x8 x9 x10 (ix2 r c) - Cert.Sage.rowMax (val_main_v77 (F := Ideal) x0 x1 x2 x3 x4 x5 x6 x7 x8 x9 x10) r := by
  have e : idx_main_call2_v3 (idx_main_call2_v4 (ix2 r c)) = ix1 r :=
    funext fun a => Fin.ext (by match a with | ⟨0, _⟩ => rfl)
  rw [val_main_call2_v5_apply, val_main_call2_v4_apply, val_main_call2_v3_apply, e, rowMax_eq]
  rfl

/-- The reference's last stage is the log-softmax of the specification, row by row: every entry less its row's
    maximum, less the logarithm of the row's sum of exponentials of such differences (the sum starts from the zero word). -/
theorem logSoftmax_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x40, .f32⟩ : BufTy).Contents (Elt Ideal)) (x9 : (⟨S40, .f32⟩ : BufTy).Contents (Elt Ideal)) (x10 : (⟨S128x40, .f32⟩ : BufTy).Contents (Elt Ideal)) :
    val_main_v78 (F := Ideal) x0 x1 x2 x3 x4 x5 x6 x7 x8 x9 x10 = Cert.Sage.logSoftmax (val_main_v77 (F := Ideal) x0 x1 x2 x3 x4 x5 x6 x7 x8 x9 x10) := by
  funext i
  obtain ⟨r, c, rfl⟩ : ∃ (r : Fin 100000) (c : Fin 40), i = ix2 r c := ⟨i 0, i 1, eq_ix2 i⟩
  have e8 : idx_main_call2_v8 (idx_main_call2_v10 (ix2 r c)) = ix1 r :=
    funext fun a => Fin.ext (by match a with | ⟨0, _⟩ => rfl)
  have e7 : ∀ k : Fin 40, idx_main_call2_v7 (ix1 r) k = ix2 r k := fun k =>
    funext fun a => Fin.ext (by match a with | ⟨0, _⟩ => rfl | ⟨1, _⟩ => rfl)
  rw [val_main_v78_apply, val_main_call2_v10_apply, val_main_call2_v9_apply, val_main_call2_v8_apply, e8,
    val_main_call2_v7_apply, val_main_call2_cst_1_apply]
  have hs : ∀ k : Fin 40, val_main_call2_v6 (F := Ideal) x0 x1 x2 x3 x4 x5 x6 x7 x8 x9 x10 (idx_main_call2_v7 (ix1 r) k)
      = Ideal.exp (val_main_v77 (F := Ideal) x0 x1 x2 x3 x4 x5 x6 x7 x8 x9 x10 (ix2 r k) - Cert.Sage.rowMax (val_main_v77 (F := Ideal) x0 x1 x2 x3 x4 x5 x6 x7 x8 x9 x10) r) := fun k => by
    rw [e7 k, val_main_call2_v6_apply, shifted_eq, Ideal.hostUnary_exp_def]
  rw [shifted_eq, Finset.sum_congr rfl (fun k _ => hs k), Ideal.subf_def, Ideal.hostUnary_log_def, Ideal.ofBits_def, Ideal.ofBits_zero_f32, zero_add]
  unfold Cert.Sage.logSoftmax
  rfl

/-- The reference's result is the specification's output layer of the third neighbour means and the second hidden
    layer. -/
theorem out_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x40, .f32⟩ : BufTy).Contents (Elt Ideal)) (x9 : (⟨S40, .f32⟩ : BufTy).Contents (Elt Ideal)) (x10 : (⟨S128x40, .f32⟩ : BufTy).Contents (Elt Ideal)) :
    val_main_v78 (F := Ideal) x0 x1 x2 x3 x4 x5 x6 x7 x8 x9 x10
      = Cert.Sage.sageOut (val_main_v71 (F := Ideal) x0 x1 x2 x3 x4 x5 x6 x7) (val_main_v53 (F := Ideal) x0 x1 x2 x3 x4 x5 x6 x7) x8 x10 x9 := by
  rw [logSoftmax_eq, z_eq]
  rfl

end Cert.Sage.Ref

end
-- ==== Proof.KernelValue.lean ====
/-
  The kernel's two result arrays, as functions of the arguments. Going through the program's six boundaries: the
  first stretch of host operations leaves the neighbour means of the node features; the first region computes the
  first hidden layer on blocks of five thousand rows, which is the layer on the whole matrices because every entry
  depends on one row; the second stretch leaves the neighbour means of that layer, and so on. At every step the value
  is named by the reference's own stages applied to the same arguments: the embeddings end as the reference's second
  hidden layer, and the log-probabilities as the output layer of the neighbour means of the embeddings and the
  embeddings.
-/
import proofs.«102452_j14980845929105_1_alg».proof.Proof.HostGlue
import proofs.«102452_j14980845929105_1_alg».proof.Proof.Blocks
import proofs.«102452_j14980845929105_1_alg».proof.Proof.RefLayers
import Idealize.ShloMosaic.Lib.ValueLayout

set_option maxRecDepth 16384

noncomputable section

namespace Cert.KernelIdeal.Result

open Cert.KernelIdeal Cert.KernelIdeal.Gen Cert.KernelIdeal.GenP Cert.KernelIdeal.Glue
open Idealize.ShloMosaic Idealize.ShloMosaic.TcCoe Idealize.ShloMosaic.ValueIdx Idealize.SL.Sem
open Cert.Sage.Mean (meanK recip Feat Edges meanK_eq)

variable (m : (ℓ : Loc nD τ sig) → Buf (Elt Ideal) ℓ) (ρ : Dev nD → PrngReg)

/-- The bias arrives as a one-row matrix, the reshaped vector: its single row is the vector. -/
theorem rowVec_reshape {a : Nat} (b : (⟨1, ![a]⟩ : Shape).Idx → EReal) (h : (⟨1, ![a]⟩ : Shape).ShapeCasts ⟨2, ![1, a]⟩) :
    Cert.Sage.rowVec (shapeCast ⟨2, ![1, a]⟩ b h) = b := by
  funext q
  show shapeCast ⟨2, ![1, a]⟩ b h (ix2 (0 : Fin 1) (q 0)) = b q
  rw [ValueIdx.shapeCast_a_1a_apply b h 0 (q 0)]
  exact congrArg b (eq_ix1 q).symm

/-- The first hidden layer, as the reference computes it from the arguments. -/
def h1 (c : Dev nD) : Feat :=
  Cert.ReferenceIdeal.ReadP.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4))
/-- The second hidden layer (the embeddings): the same layer, with its own weights, of the first. -/
def h2 (c : Dev nD) : Feat :=
  Cert.ReferenceIdeal.ReadP.val_main_v28 (F := Ideal) (h1 m c) (m ((c : Thread nD τ).loc main_arg1)) (m ((c : Thread nD τ).loc main_arg5)) (m ((c : Thread nD τ).loc main_arg6)) (m ((c : Thread nD τ).loc main_arg7))
/-- The log-probabilities: the output layer of the embeddings' neighbour means and the embeddings. -/
def logp (c : Dev nD) : FVec Ideal S100000x40 .f32 :=
  Cert.Sage.sageOut (Cert.ReferenceIdeal.ReadP.val_main_v21 (F := Ideal) (h2 m c) (m ((c : Thread nD τ).loc main_arg1))) (h2 m c) (m ((c : Thread nD τ).loc main_arg8)) (m ((c : Thread nD τ).loc main_arg10)) (m ((c : Thread nD τ).loc main_arg9))

/-- The first region's output array is the first hidden layer. -/
theorem W2_v25 (c : Dev nD) : W2 m ρ c (Proc.devRef .tc main_v25) = h1 m c := by
  refine (W2_arr m ρ c 5).trans ?_
  rw [Cert.KernelIdeal.Blocks.final0 (V1 m ρ) c]
  show Cert.Sage.sageRelu (W1 m ρ c (Proc.devRef .tc main_v23)) (W1 m ρ c (Proc.devRef .tc main_arg0)) (W1 m ρ c (Proc.devRef .tc main_arg2))
    (W1 m ρ c (Proc.devRef .tc main_arg4)) (Cert.Sage.rowVec (W1 m ρ c (Proc.devRef .tc main_v24))) = _
  rw [W1_v23, W1_arg0, W1_arg2, W1_arg4, W1_v24, meanK_eq, rowVec_reshape]
  exact (Cert.Sage.Ref.h1_eq _ _ _ _ _).symm

/-- The second region's output array is the second hidden layer. -/
theorem W4_v39 (c : Dev nD) : W4 m ρ c (Proc.devRef .tc main_v39) = h2 m c := by
  refine (W4_arr m ρ c 5).trans ?_
  rw [Cert.KernelIdeal.Blocks.final1 (V3 m ρ) c]
  show Cert.Sage.sageRelu (W3 m ρ c (Proc.devRef .tc main_v37)) (W3 m ρ c (Proc.devRef .tc main_v25)) (W3 m ρ c (Proc.devRef .tc main_arg5))
    (W3 m ρ c (Proc.devRef .tc main_arg7)) (Cert.Sage.rowVec (W3 m ρ c (Proc.devRef .tc main_v38))) = _
  rw [W3_v37, W3_v25, W3_arg5, W3_arg7, W3_v38, W2_v25, meanK_eq, rowVec_reshape]
  exact (Cert.Sage.Ref.h1_eq _ _ _ _ _).symm

/-- The third region's output array is the log-probabilities. -/
theorem W6_v53 (c : Dev nD) : W6 m ρ c (Proc.devRef .tc main_v53) = logp m c := by
  refine (W6_arr m ρ c 5).trans ?_
  rw [Cert.KernelIdeal.Blocks.final2 (V5 m ρ) c]
  show Cert.Sage.sageOut (W5 m ρ c (Proc.devRef .tc main_v51)) (W5 m ρ c (Proc.devRef .tc main_v39)) (W5 m ρ c (Proc.devRef .tc main_arg8))
    (W5 m ρ c (Proc.devRef .tc main_arg10)) (Cert.Sage.rowVec (W5 m ρ c (Proc.devRef .tc main_v52))) = _
  rw [W5_v51, W5_v39, W5_arg8, W5_arg10, W5_v52, W4_v39, meanK_eq, rowVec_reshape]
  rfl

/-- The embeddings' array at the end is the second hidden layer. -/
theorem W6_emb (c : Dev nD) : W6 m ρ c (Proc.devRef .tc main_v39) = h2 m c :=
  (W6_v39 m ρ c).trans (W4_v39 m ρ c)

end Cert.KernelIdeal.Result

end
-- ==== Proof.RefRun.lean ====
/-
  The reference program's run, read back layer by layer. The program is one line of 115 host operations; its buffers
  after the line are a fold of the operations over the launch memory. The fold is taken here in four parts — the first
  layer, the second layer, the third layer's affine part, and the row-wise logarithm of the softmax —, each part's
  result named by the stage functions of the arguments: what a later part reads of an earlier one is the earlier part's
  named result, so no part ever sees a term deeper than one layer. The two results end at the stages `val_main_v78`
  (the log-probabilities) and `val_main_v53` (the embeddings) of the arguments, and no operation writes an argument.
-/
import proofs.«102452_j14980845929105_1_alg».proof.Proof.RefRunP
import proofs.«102452_j14980845929105_1_alg».proof.Proof.RefStages
import Idealize.ShloMosaic.Lib.StableHlo.Run

set_option maxRecDepth 16384

noncomputable section

namespace Cert.ReferenceIdeal.RunByLayers

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The buffers after two lines in a row are the buffers after the second, from the buffers after the first. -/
theorem after_append (a b : List (HloOp τ sig (Elt F))) (V : Valuation τ sig (Elt F)) :
    after (a ++ b) V = after b (after a V) := by
  induction a generalizing V with
  | nil => rfl
  | cons op a ih => exact ih _

/-! ## The program's line in four parts -/

abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000x1 ![] bcast_S_S1600000x1 : (⟨S_, .f32⟩ : BufTy).Contents (Elt F) → (⟨S1600000x1, .f32⟩ : BufTy).Contents (Elt F)),
    nullary main_cst_2 (constant S_ .f32 0x00000000#32),
    unary main_cst_2 main_v15 (broadcastInDim S100000x1 ![] bcast_S_S100000x1 : (⟨S_, .f32⟩ : BufTy).Contents (Elt F) → (⟨S100000x1, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_3 (constant S_ .f32 0x3F800000#32),
    unary main_cst_3 main_v18 (broadcastInDim S100000x1 ![] bcast_S_S100000x1 : (⟨S_, .f32⟩ : BufTy).Contents (Elt F) → (⟨S100000x1, .f32⟩ : BufTy).Contents (Elt F)),
    binary main_v17 main_v18 main_v19 (maximumf : (⟨S100000x1, .f32⟩ : BufTy).Contents (Elt F) → (⟨S100000x1, .f32⟩ : BufTy).Contents (Elt F) → (⟨S100000x1, .f32⟩ : BufTy).Contents (Elt F)),
    unary main_v19 main_v20 (broadcastInDim S100000x128 ![0, 1] bcast_S100000x1_S100000x128_0_1 : (⟨S100000x1, .f32⟩ : BufTy).Contents (Elt F) → (⟨S100000x128, .f32⟩ : BufTy).Contents (Elt F)),
    binary main_v13 main_v20 main_v21 (Host.divf : (⟨S100000x128, .f32⟩ : BufTy).Contents (Elt F) → (⟨S100000x128, .f32⟩ : BufTy).Contents (Elt F) → (⟨S100000x128, .f32⟩ : BufTy).Contents (Elt F)),
    binary main_v21 main_arg2 main_v22 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v23 (broadcastInDim S1x128 ![1] bcast_S128_S1x128_1 : (⟨S128, .f32⟩ : BufTy).Contents (Elt F) → (⟨S1x128, .f32⟩ : BufTy).Contents (Elt F)),
    unary main_v23 main_v24 (broadcastInDim S100000x128 ![0, 1] bcast_S1x128_S100000x128_0_1 : (⟨S1x128, .f32⟩ : BufTy).Contents (Elt F) → (⟨S100000x128, .f32⟩ : BufTy).Contents (Elt F)),
    binary main_v22 main_v24 main_v25 (addf : (⟨S100000x128, .f32⟩ : BufTy).Contents (Elt F) → (⟨S100000x128, .f32⟩ : BufTy).Contents (Elt F) → (⟨S100000x128, .f32⟩ : BufTy).Contents (Elt F)),
    binary main_arg0 main_arg4 main_v26 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v25 main_v26 main_v27 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v27) (TRef.of (T := ⟨S100000x128, .f32⟩) main_call0_v0) (TRef.of (T := ⟨S100000x128, .f32⟩) main_v28) maximumf ]

abbrev opsB : List (HloOp τ sig (Elt F)) :=
  [ nullary main_c_4 (constantI S_ 32 0#32),
    unary main_c_4 main_v29 (broadcastInDim S1600000 ![] bcast_S_S1600000 : (⟨S_, .i32⟩ : BufTy).Contents (Elt F) → (⟨S1600000, .i32⟩ : BufTy).Contents (Elt F)),
    binary main_v1 main_v29 main_v30 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v31 (broadcastInDim S1600000 ![] bcast_S_S1600000 : (⟨S_, .i32⟩ : BufTy).Contents (Elt F) → (⟨S1600000, .i32⟩ : BufTy).Contents (Elt F)),
    binary main_v1 main_v31 main_v32 (addi : (⟨S1600000, .i32⟩ : BufTy).Contents (Elt F) → (⟨S1600000, .i32⟩ : BufTy).Contents (Elt F) → (⟨S1600000, .i32⟩ : BufTy).Contents (Elt F)),
    ternary main_v30 main_v32 main_v1 main_v33 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v33 main_v34 (broadcastInDim S1600000x1 ![0] bcast_S1600000_S1600000x1_0 : (⟨S1600000, .i32⟩ : BufTy).Contents (Elt F) → (⟨S1600000x1, .i32⟩ : BufTy).Contents (Elt F)),
    binary main_v28 main_v34 main_v35 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_6 (constant S_ .f32 0x00000000#32),
    unary main_cst_6 main_v36 (broadcastInDim S100000x128 ![] bcast_S_S100000x128 : (⟨S_, .f32⟩ : BufTy).Contents (Elt F) → (⟨S100000x128, .f32⟩ : BufTy).Contents (Elt F)),
    unary main_v3 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_7 (constant S_ .f32 0x3F800000#32),
    unary main_cst_7 main_v39 (broadcastInDim S1600000x1 ![] bcast_S_S1600000x1 : (⟨S_, .f32⟩ : BufTy).Contents (Elt F) → (⟨S1600000x1, .f32⟩ : BufTy).Contents (Elt F)),
    nullary main_cst_8 (constant S_ .f32 0x00000000#32),
    unary main_cst_8 main_v40 (broadcastInDim S100000x1 ![] bcast_S_S100000x1 : (⟨S_, .f32⟩ : BufTy).Contents (Elt F) → (⟨S100000x1, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_9 (constant S_ .f32 0x3F800000#32),
    unary main_cst_9 main_v43 (broadcastInDim S100000x1 ![] bcast_S_S100000x1 : (⟨S_, .f32⟩ : BufTy).Contents (Elt F) → (⟨S100000x1, .f32⟩ : BufTy).Contents (Elt F)),
    binary main_v42 main_v43 main_v44 (maximumf : (⟨S100000x1, .f32⟩ : BufTy).Contents (Elt F) → (⟨S100000x1, .f32⟩ : BufTy).Contents (Elt F) → (⟨S100000x1, .f32⟩ : BufTy).Contents (Elt F)),
    unary main_v44 main_v45 (broadcastInDim S100000x128 ![0, 1] bcast_S100000x1_S100000x128_0_1 : (⟨S100000x1, .f32⟩ : BufTy).Contents (Elt F) → (⟨S100000x128, .f32⟩ : BufTy).Contents (Elt F)),
    binary main_v38 main_v45 main_v46 (Host.divf : (⟨S100000x128, .f32⟩ : BufTy).Contents (Elt F) → (⟨S100000x128, .f32⟩ : BufTy).Contents (Elt F) → (⟨S100000x128, .f32⟩ : BufTy).Contents (Elt F)),
    binary main_v46 main_arg5 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (addf : (⟨S100000x128, .f32⟩ : BufTy).Contents (Elt F) → (⟨S100000x128, .f32⟩ : BufTy).Contents (Elt F) → (⟨S100000x128, .f32⟩ : BufTy).Contents (Elt F)),
    binary main_v28 main_arg7 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v50 main_v51 main_v52 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v52) (TRef.of (T := ⟨S100000x128, .f32⟩) main_call1_v0) (TRef.of (T := ⟨S100000x128, .f32⟩) main_v53) maximumf ]

abbrev opsC : List (HloOp τ sig (Elt F)) :=
  [ nullary main_c_10 (constantI S_ 32 0#32),
    unary main_c_10 main_v54 (broadcastInDim S1600000 ![] bcast_S_S1600000 : (⟨S_, .i32⟩ : BufTy).Contents (Elt F) → (⟨S1600000, .i32⟩ : BufTy).Contents (Elt F)),
    binary main_v1 main_v54 main_v55 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v56 (broadcastInDim S1600000 ![] bcast_S_S1600000 : (⟨S_, .i32⟩ : BufTy).Contents (Elt F) → (⟨S1600000, .i32⟩ : BufTy).Contents (Elt F)),
    binary main_v1 main_v56 main_v57 (addi : (⟨S1600000, .i32⟩ : BufTy).Contents (Elt F) → (⟨S1600000, .i32⟩ : BufTy).Contents (Elt F) → (⟨S1600000, .i32⟩ : BufTy).Contents (Elt F)),
    ternary main_v55 main_v57 main_v1 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v58 main_v59 (broadcastInDim S1600000x1 ![0] bcast_S1600000_S1600000x1_0 : (⟨S1600000, .i32⟩ : BufTy).Contents (Elt F) → (⟨S1600000x1, .i32⟩ : BufTy).Contents (Elt F)),
    binary main_v53 main_v59 main_v60 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_13 (constant S_ .f32 0x3F800000#32),
    unary main_cst_13 main_v64 (broadcastInDim S1600000x1 ![] bcast_S_S1600000x1 : (⟨S_, .f32⟩ : BufTy).Contents (Elt F) → (⟨S1600000x1, .f32⟩ : BufTy).Contents (Elt F)),
    nullary main_cst_14 (constant S_ .f32 0x00000000#32),
    unary main_cst_14 main_v65 (broadcastInDim S100000x1 ![] bcast_S_S100000x1 : (⟨S_, .f32⟩ : BufTy).Contents (Elt F) → (⟨S100000x1, .f32⟩ : BufTy).Contents (Elt F)),
    unary main_v3 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_15 (constant S_ .f32 0x3F800000#32),
    unary main_cst_15 main_v68 (broadcastInDim S100000x1 ![] bcast_S_S100000x1 : (⟨S_, .f32⟩ : BufTy).Contents (Elt F) → (⟨S100000x1, .f32⟩ : BufTy).Contents (Elt F)),
    binary main_v67 main_v68 main_v69 (maximumf : (⟨S100000x1, .f32⟩ : BufTy).Contents (Elt F) → (⟨S100000x1, .f32⟩ : BufTy).Contents (Elt F) → (⟨S100000x1, .f32⟩ : BufTy).Contents (Elt F)),
    unary main_v69 main_v70 (broadcastInDim S100000x128 ![0, 1] bcast_S100000x1_S100000x128_0_1 : (⟨S100000x1, .f32⟩ : BufTy).Contents (Elt F) → (⟨S100000x128, .f32⟩ : BufTy).Contents (Elt F)),
    binary main_v63 main_v70 main_v71 (Host.divf : (⟨S100000x128, .f32⟩ : BufTy).Contents (Elt F) → (⟨S100000x128, .f32⟩ : BufTy).Contents (Elt F) → (⟨S100000x128, .f32⟩ : BufTy).Contents (Elt F)),
    binary main_v71 main_arg8 main_v72 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg9 main_v73 (broadcastInDim S1x40 ![1] bcast_S40_S1x40_1 : (⟨S40, .f32⟩ : BufTy).Contents (Elt F) → (⟨S1x40, .f32⟩ : BufTy).Contents (Elt F)),
    unary main_v73 main_v74 (broadcastInDim S100000x40 ![0, 1] bcast_S1x40_S100000x40_0_1 : (⟨S1x40, .f32⟩ : BufTy).Contents (Elt F) → (⟨S100000x40, .f32⟩ : BufTy).Contents (Elt F)),
    binary main_v72 main_v74 main_v75 (addf : (⟨S100000x40, .f32⟩ : BufTy).Contents (Elt F) → (⟨S100000x40, .f32⟩ : BufTy).Contents (Elt F) → (⟨S100000x40, .f32⟩ : BufTy).Contents (Elt F)),
    binary main_v53 main_arg10 main_v76 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v75 main_v76 main_v77 (addf : (⟨S100000x40, .f32⟩ : BufTy).Contents (Elt F) → (⟨S100000x40, .f32⟩ : BufTy).Contents (Elt F) → (⟨S100000x40, .f32⟩ : BufTy).Contents (Elt F)) ]

abbrev opsD : List (HloOp τ sig (Elt F)) :=
  [ TRef.nullary (TRef.of (T := ⟨S_, .f32⟩) main_call2_cst) (constant S_ .f32 0xFF800000#32),
    TRef.binary (TRef.of (T := ⟨S100000x40, .f32⟩) main_v77) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v77) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v78) subf ]

set_option maxRecDepth 65536 in
theorem ops_eq : (ops : List (HloOp τ sig (Elt F))) = opsA ++ (opsB ++ (opsC ++ opsD)) := rfl

variable (m : (ℓ : Loc nD τ sig) → Buf (Elt F) ℓ)

/-- The buffers after the first layer's operations. -/
def RA (c : Dev nD) : Valuation τ sig (Elt F) := after opsA (launchContents m c)
/-- After the second layer's. -/
def RB (c : Dev nD) : Valuation τ sig (Elt F) := after opsB (RA m c)
/-- After the third layer's affine part. -/
def RC (c : Dev nD) : Valuation τ sig (Elt F) := after opsC (RB m c)
/-- After the logarithm of the softmax: the buffers after the whole line. -/
def RD (c : Dev nD) : Valuation τ sig (Elt F) := after opsD (RC m c)

theorem after_ops (c : Dev nD) : after (ops : List (HloOp τ sig (Elt F))) (launchContents m c) = RD m c := by
  rw [ops_eq, after_append, after_append, after_append]
  rfl

/-! ## The first layer -/

theorem RA_v1 (c : Dev nD) : RA m c (Proc.devRef .tc main_v1) = val_main_v1 (F := F) (m ((c.tc : Thread nD τ).loc main_arg1)) := by
  show after (opsA (F := F)) (launchContents m c) (Proc.devRef .tc main_v1) = _
  after_results_simp
  rfl
theorem RA_v3 (c : Dev nD) : RA m c (Proc.devRef .tc main_v3) = val_main_v3 (F := F) (m ((c.tc : Thread nD τ).loc main_arg1)) := by
  show after (opsA (F := F)) (launchContents m c) (Proc.devRef .tc main_v3) = _
  after_results_simp
  rfl
theorem RA_v28 (c : Dev nD) : RA m c (Proc.devRef .tc main_v28) = val_main_v28 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after (opsA (F := F)) (launchContents m c) (Proc.devRef .tc main_v28) = _
  after_results_simp
  rfl
theorem RA_arg5 (c : Dev nD) : RA m c (Proc.devRef .tc main_arg5) = m ((c.tc : Thread nD τ).loc main_arg5) := by
  show after (opsA (F := F)) (launchContents m c) (Proc.devRef .tc main_arg5) = _
  after_results_simp <;> rfl
theorem RA_arg6 (c : Dev nD) : RA m c (Proc.devRef .tc main_arg6) = m ((c.tc : Thread nD τ).loc main_arg6) := by
  show after (opsA (F := F)) (launchContents m c) (Proc.devRef .tc main_arg6) = _
  after_results_simp <;> rfl
theorem RA_arg7 (c : Dev nD) : RA m c (Proc.devRef .tc main_arg7) = m ((c.tc : Thread nD τ).loc main_arg7) := by
  show after (opsA (F := F)) (launchContents m c) (Proc.devRef .tc main_arg7) = _
  after_results_simp <;> rfl
theorem RA_arg8 (c : Dev nD) : RA m c (Proc.devRef .tc main_arg8) = m ((c.tc : Thread nD τ).loc main_arg8) := by
  show after (opsA (F := F)) (launchContents m c) (Proc.devRef .tc main_arg8) = _
  after_results_simp <;> rfl
theorem RA_arg9 (c : Dev nD) : RA m c (Proc.devRef .tc main_arg9) = m ((c.tc : Thread nD τ).loc main_arg9) := by
  show after (opsA (F := F)) (launchContents m c) (Proc.devRef .tc main_arg9) = _
  after_results_simp <;> rfl
theorem RA_arg10 (c : Dev nD) : RA m c (Proc.devRef .tc main_arg10) = m ((c.tc : Thread nD τ).loc main_arg10) := by
  show after (opsA (F := F)) (launchContents m c) (Proc.devRef .tc main_arg10) = _
  after_results_simp <;> rfl

/-! ## The second layer -/

theorem RB_v53 (c : Dev nD) : RB m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (opsB (F := F)) (RA m c) (Proc.devRef .tc main_v53) = _
  after_results_simp
  rw [RA_v1, RA_v3, RA_v28, RA_arg5, RA_arg6, RA_arg7]
  rfl
theorem RB_v1 (c : Dev nD) : RB m c (Proc.devRef .tc main_v1) = val_main_v1 (F := F) (m ((c.tc : Thread nD τ).loc main_arg1)) :=
  (show after (opsB (F := F)) (RA m c) (Proc.devRef .tc main_v1) = RA m c (Proc.devRef .tc main_v1) by after_results_simp).trans (RA_v1 m c)
theorem RB_v3 (c : Dev nD) : RB m c (Proc.devRef .tc main_v3) = val_main_v3 (F := F) (m ((c.tc : Thread nD τ).loc main_arg1)) :=
  (show after (opsB (F := F)) (RA m c) (Proc.devRef .tc main_v3) = RA m c (Proc.devRef .tc main_v3) by after_results_simp).trans (RA_v3 m c)
theorem RB_arg8 (c : Dev nD) : RB m c (Proc.devRef .tc main_arg8) = m ((c.tc : Thread nD τ).loc main_arg8) :=
  (show after (opsB (F := F)) (RA m c) (Proc.devRef .tc main_arg8) = RA m c (Proc.devRef .tc main_arg8) by after_results_simp).trans (RA_arg8 m c)
theorem RB_arg9 (c : Dev nD) : RB m c (Proc.devRef .tc main_arg9) = m ((c.tc : Thread nD τ).loc main_arg9) :=
  (show after (opsB (F := F)) (RA m c) (Proc.devRef .tc main_arg9) = RA m c (Proc.devRef .tc main_arg9) by after_results_simp).trans (RA_arg9 m c)
theorem RB_arg10 (c : Dev nD) : RB m c (Proc.devRef .tc main_arg10) = m ((c.tc : Thread nD τ).loc main_arg10) :=
  (show after (opsB (F := F)) (RA m c) (Proc.devRef .tc main_arg10) = RA m c (Proc.devRef .tc main_arg10) by after_results_simp).trans (RA_arg10 m c)

/-! ## The third layer's affine part -/

theorem RC_v77 (c : Dev nD) : RC m c (Proc.devRef .tc main_v77) = val_main_v77 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after (opsC (F := F)) (RB m c) (Proc.devRef .tc main_v77) = _
  after_results_simp
  rw [RB_v1, RB_v3, RB_v53, RB_arg8, RB_arg9, RB_arg10]
  rfl
theorem RC_v53 (c : Dev nD) : RC m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (show after (opsC (F := F)) (RB m c) (Proc.devRef .tc main_v53) = RB m c (Proc.devRef .tc main_v53) by after_results_simp).trans (RB_v53 m c)

/-! ## The logarithm of the softmax -/

/-! ## A buffer read at its value's type

The operations of a called function name their buffers by typed references, and move a value between the value's
type and the buffer's own along the equation of the two. Read at the value's type, an operation's result is its
function applied to its operands read the same way: the two moves cancel, whatever the buffer. -/

section TypedRead

variable {T Tx Ta Tb Ty : BufTy}

/-- The contents of a typed reference's buffer, at the value's type. -/
def rd (V : Valuation τ sig (Elt F)) (x : TRef sig T) : T.Contents (Elt F) := x.ofBuf (V (Proc.devRef .tc x.ref))

/-- Moving a value to the buffer's type and back is the identity. -/
theorem ofBuf_toBuf (x : TRef sig T) (v : T.Contents (Elt F)) : x.ofBuf (x.toBuf v) = v := by
  obtain ⟨r, h, _, _⟩ := x
  subst h
  rfl

theorem rd_nullary (y : TRef sig Ty) (v : Ty.Contents (Elt F)) (V : Valuation τ sig (Elt F)) :
    rd ((TRef.nullary (τ := τ) y v).result V) y = v :=
  (congrArg y.ofBuf (nullary_result y.ref (y.toBuf v) y.dev V)).trans (ofBuf_toBuf y v)
theorem rd_unary (x : TRef sig Tx) (y : TRef sig Ty) (f : Tx.Contents (Elt F) → Ty.Contents (Elt F)) (V : Valuation τ sig (Elt F)) :
    rd ((TRef.unary (τ := τ) x y f).result V) y = f (rd V x) :=
  (congrArg y.ofBuf (unary_result x.ref y.ref (fun u => y.toBuf (f (x.ofBuf u))) x.dev y.dev V)).trans (ofBuf_toBuf y _)
theorem rd_binary (a : TRef sig Ta) (b : TRef sig Tb) (y : TRef sig Ty) (f : Ta.Contents (Elt F) → Tb.Contents (Elt F) → Ty.Contents (Elt F))
    (V : Valuation τ sig (Elt F)) :
    rd ((TRef.binary (τ := τ) a b y f).result V) y = f (rd V a) (rd V b) :=
  (congrArg y.ofBuf (binary_result a.ref b.ref y.ref (fun u v => y.toBuf (f (a.ofBuf u) (b.ofBuf v))) a.dev b.dev y.dev V)).trans (ofBuf_toBuf y _)

theorem rd_nullary_ne (y : TRef sig Ty) (v : Ty.Contents (Elt F)) (V : Valuation τ sig (Elt F)) (z : TRef sig T) (h : z.ref ≠ y.ref) :
    rd ((TRef.nullary (τ := τ) y v).result V) z = rd V z :=
  congrArg z.ofBuf (nullary_result_ne y.ref (y.toBuf v) y.dev V h)
theorem rd_unary_ne (x : TRef sig Tx) (y : TRef sig Ty) (f : Tx.Contents (Elt F) → Ty.Contents (Elt F)) (V : Valuation τ sig (Elt F))
    (z : TRef sig T) (h : z.ref ≠ y.ref) :
    rd ((TRef.unary (τ := τ) x y f).result V) z = rd V z :=
  congrArg z.ofBuf (unary_result_ne x.ref y.ref (fun u => y.toBuf (f (x.ofBuf u))) x.dev y.dev V h)
theorem rd_binary_ne (a : TRef sig Ta) (b : TRef sig Tb) (y : TRef sig Ty) (f : Ta.Contents (Elt F) → Tb.Contents (Elt F) → Ty.Contents (Elt F))
    (V : Valuation τ sig (Elt F)) (z : TRef sig T) (h : z.ref ≠ y.ref) :
    rd ((TRef.binary (τ := τ) a b y f).result V) z = rd V z :=
  congrArg z.ofBuf (binary_result_ne a.ref b.ref y.ref (fun u v => y.toBuf (f (a.ofBuf u) (b.ofBuf v))) a.dev b.dev y.dev V h)

end TypedRead

/-- The part's two boundary buffers hold values of their own type: read at that type they are as they are. -/
theorem rd_main_v77 (W : Valuation τ sig (Elt F)) :
    rd W (TRef.of (T := ⟨S100000x40, .f32⟩) main_v77) = W (Proc.devRef .tc main_v77) := rfl
theorem rd_main_v78 (W : Valuation τ sig (Elt F)) :
    rd W (TRef.of (T := ⟨S100000x40, .f32⟩) main_v78) = W (Proc.devRef .tc main_v78) := rfl

/-- From any buffers whose affine part is the stage `val_main_v77` of the arguments, the part's operations leave the
    stage `val_main_v78`: every operation read at its value's type, then the stages between the two opened. -/
theorem opsD_v78 (V : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 x5 : (⟨S128x128, .f32⟩ : BufTy).Contents (Elt F)) (x6 : (⟨S128, .f32⟩ : BufTy).Contents (Elt F)) (x7 : (⟨S128x128, .f32⟩ : BufTy).Contents (Elt F)) (x8 : (⟨S128x40, .f32⟩ : BufTy).Contents (Elt F)) (x9 : (⟨S40, .f32⟩ : BufTy).Contents (Elt F)) (x10 : (⟨S128x40, .f32⟩ : BufTy).Contents (Elt F))
    (hV : V (Proc.devRef .tc main_v77) = val_main_v77 (F := F) x0 x1 x2 x3 x4 x5 x6 x7 x8 x9 x10) :
    after (opsD (F := F)) V (Proc.devRef .tc main_v78) = val_main_v78 (F := F) x0 x1 x2 x3 x4 x5 x6 x7 x8 x9 x10 := by
  refine (rd_main_v78 _).symm.trans ?_
  simp (disch := decide) only [after_cons, after_nil, rd_nullary, rd_unary, rd_binary, rd_nullary_ne, rd_unary_ne, rd_binary_ne]
  rw [rd_main_v77, hV]
  unfold val_main_v78 val_main_call2_v10 val_main_call2_v9 val_main_call2_v8 val_main_call2_v7 val_main_call2_cst_1 val_main_call2_v6 val_main_call2_v5 val_main_call2_v4 val_main_call2_v3 val_main_call2_v2 val_main_call2_v1 val_main_call2_cst_0 val_main_call2_v0 val_main_call2_cst
  rfl

theorem RD_v78 (c : Dev nD) : RD m c (Proc.devRef .tc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  show after (opsD (F := F)) (RC m c) (Proc.devRef .tc main_v78) = _
  exact opsD_v78 (RC m c) _ _ _ _ _ _ _ _ _ _ _ (RC_v77 m c)
theorem RD_v53 (c : Dev nD) : RD m c (Proc.devRef .tc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (show after (opsD (F := F)) (RC m c) (Proc.devRef .tc main_v53) = RC m c (Proc.devRef .tc main_v53) by after_results_simp).trans (RC_v53 m c)

/-! ## No operation writes an argument -/

theorem kept_arg0 (c : Dev nD) : after (ops : List (HloOp τ sig (Elt F))) (launchContents m c) (Proc.devRef .tc main_arg0) = m ((c.tc : Thread nD τ).loc main_arg0) := by
  after_results_simp <;> rfl
theorem kept_arg1 (c : Dev nD) : after (ops : List (HloOp τ sig (Elt F))) (launchContents m c) (Proc.devRef .tc main_arg1) = m ((c.tc : Thread nD τ).loc main_arg1) := by
  after_results_simp <;> rfl
theorem kept_arg2 (c : Dev nD) : after (ops : List (HloOp τ sig (Elt F))) (launchContents m c) (Proc.devRef .tc main_arg2) = m ((c.tc : Thread nD τ).loc main_arg2) := by
  after_results_simp <;> rfl
theorem kept_arg3 (c : Dev nD) : after (ops : List (HloOp τ sig (Elt F))) (launchContents m c) (Proc.devRef .tc main_arg3) = m ((c.tc : Thread nD τ).loc main_arg3) := by
  after_results_simp <;> rfl
theorem kept_arg4 (c : Dev nD) : after (ops : List (HloOp τ sig (Elt F))) (launchContents m c) (Proc.devRef .tc main_arg4) = m ((c.tc : Thread nD τ).loc main_arg4) := by
  after_results_simp <;> rfl
theorem kept_arg5 (c : Dev nD) : after (ops : List (HloOp τ sig (Elt F))) (launchContents m c) (Proc.devRef .tc main_arg5) = m ((c.tc : Thread nD τ).loc main_arg5) := by
  after_results_simp <;> rfl
theorem kept_arg6 (c : Dev nD) : after (ops : List (HloOp τ sig (Elt F))) (launchContents m c) (Proc.devRef .tc main_arg6) = m ((c.tc : Thread nD τ).loc main_arg6) := by
  after_results_simp <;> rfl
theorem kept_arg7 (c : Dev nD) : after (ops : List (HloOp τ sig (Elt F))) (launchContents m c) (Proc.devRef .tc main_arg7) = m ((c.tc : Thread nD τ).loc main_arg7) := by
  after_results_simp <;> rfl
theorem kept_arg8 (c : Dev nD) : after (ops : List (HloOp τ sig (Elt F))) (launchContents m c) (Proc.devRef .tc main_arg8) = m ((c.tc : Thread nD τ).loc main_arg8) := by
  after_results_simp <;> rfl
theorem kept_arg9 (c : Dev nD) : after (ops : List (HloOp τ sig (Elt F))) (launchContents m c) (Proc.devRef .tc main_arg9) = m ((c.tc : Thread nD τ).loc main_arg9) := by
  after_results_simp <;> rfl
theorem kept_arg10 (c : Dev nD) : after (ops : List (HloOp τ sig (Elt F))) (launchContents m c) (Proc.devRef .tc main_arg10) = m ((c.tc : Thread nD τ).loc main_arg10) := by
  after_results_simp <;> rfl

/-! ## The run -/

/-- On every device, from any memory with zero counters: every weakly fair execution of the reference terminates without
    a fault, with the log-probabilities and the embeddings at their stages of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v78) = val_main_v78 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v53) = val_main_v53 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v78).trans ((congrFun (after_ops m c) _).trans (RD_v78 m c)),
      (h c main_v53).trans ((congrFun (after_ops m c) _).trans (RD_v53 m c)),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c)⟩)
    (run_seq scopedRefs_eq scopedSems_eq defs main (fun _ => ops) main_eq (fun _ => ops_sub) m ρ)

end Cert.ReferenceIdeal.RunByLayers

end
-- ==== Proof.lean ====
/-
  The certificate of a three-layer mean-aggregation graph network on 100000 nodes and 1600000 edges.

  Both programs gather the current node features along the edges' sources, add them up at the edges' destinations and
  divide by the clamped in-degree, on the host. The kernel's program then runs, per layer, one pipelined region that
  computes `mean · Wl + h · Wr + b` on blocks of five thousand rows (clamped at zero for the two hidden layers, followed
  by the row-wise logarithm of the softmax for the last), where the reference computes `mean · Wl + b + h · Wr` on the
  whole matrices. At the ideal instance a change of float format is the identity and every sum is exact, so the two
  differ only in (1) the order of the three summands, (2) the neighbour mean written as a product with the reciprocal
  `1 / max(deg, 1)` instead of a quotient by `max(deg, 1)` — equal because the divisor is at least one, hence not zero —
  and (3) the tiling by rows, which changes nothing because every entry of a layer depends on one row of its inputs.
  None of these needs the inputs to be finite, so the precondition is not used.

  The three frames are the programs' runs with the results dropped; the idealization rewrote no operation, so there is
  nothing to preserve; and the two idealized programs, from memories agreeing on the arguments, end with the same
  log-probabilities and the same embeddings.
-/
import proofs.«102452_j14980845929105_1_alg».proof.Defs
import proofs.«102452_j14980845929105_1_alg».proof.Proof.Gen.Kernel
import proofs.«102452_j14980845929105_1_alg».proof.Proof.Gen.KernelIdeal
import proofs.«102452_j14980845929105_1_alg».proof.Proof.Gen.ReferenceIdeal
import proofs.«102452_j14980845929105_1_alg».proof.Proof.Gen.Pre_finite_inputs
import proofs.«102452_j14980845929105_1_alg».proof.Proof.KernelFrameP
import proofs.«102452_j14980845929105_1_alg».proof.Proof.KernelIdealFrameP
import proofs.«102452_j14980845929105_1_alg».proof.Proof.KernelRun
import proofs.«102452_j14980845929105_1_alg».proof.Proof.KernelValue
import proofs.«102452_j14980845929105_1_alg».proof.Proof.RefRun
import proofs.«102452_j14980845929105_1_alg».proof.Proof.RefLayers

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the idealized reference: its run, with the two results dropped. -/
theorem frame_referenceIdeal : Cert.frame_ReferenceIdeal := fun m ρ _ =>
  (θ_run Cert.ReferenceIdeal.defs _ _).mono (fun _ h c => (h c).2.2) (Cert.ReferenceIdeal.RunByLayers.run (F := Ideal) m ρ)

/-- The idealized kernel and the idealized reference end with equal results: the log-probabilities `logp` and the
    embeddings `h2`, both named by the reference's own stages of the arguments. On the kernel's side that is the value
    read through the program's six boundaries; on the reference's side the third layer's stages are the first layer's
    applied to the second layer's result, and the arguments agree. -/
theorem algebraic : Cert.algebraic_KernelIdeal_ReferenceIdeal := by
  intro m ρ m' ρ' _ hagree
  refine ⟨fun c => Cert.KernelIdeal.Result.logp m c, fun c => Cert.KernelIdeal.Result.h2 m c, ?_, ?_⟩
  · exact (θ_run Cert.KernelIdeal.defs _ _).mono
      (fun r h c => ⟨(h c).1.trans (Cert.KernelIdeal.Result.W6_v53 m ρ c), (h c).2.1.trans (Cert.KernelIdeal.Result.W6_emb m ρ c), (h c).2.2⟩)
      (Cert.KernelIdeal.RunNamed.run m ρ)
  · refine (θ_run Cert.ReferenceIdeal.defs _ _).mono (fun r h c => ⟨(h c).1.trans ?_, (h c).2.1.trans ?_, (h c).2.2⟩)
      (Cert.ReferenceIdeal.RunByLayers.run (F := Ideal) m' ρ')
    · obtain ⟨a0, a1, a2, a3, a4, a5, a6, a7, a8, a9, a10⟩ := hagree c
      rw [Cert.Sage.Ref.out_eq, Cert.Sage.Ref.mean3_eq, Cert.Sage.Ref.h2_eq,
        a0, a1, a2, a3, a4, a5, a6, a7, a8, a9, a10]
      rfl
    · obtain ⟨a0, a1, a2, a3, a4, a5, a6, a7, a8, a9, a10⟩ := hagree c
      rw [Cert.Sage.Ref.h2_eq, a0, a1, a2, a3, a4, a5, a6, a7]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
